-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x512x8x1 : Shape := ⟨4, ![128, 512, 8, 1]⟩
abbrev S128x512x1x256 : Shape := ⟨4, ![128, 512, 1, 256]⟩
abbrev S256x256 : Shape := ⟨2, ![256, 256]⟩
abbrev S256 : Shape := ⟨1, ![256]⟩
abbrev S256x512 : Shape := ⟨2, ![256, 512]⟩
abbrev S512 : Shape := ⟨1, ![512]⟩
abbrev S256x64 : Shape := ⟨2, ![256, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S128x512x8x1 : S_.BroadcastsInDim S128x512x8x1 (![] : Fin 0 → Fin S128x512x8x1.rank)
  reducesTo_S128x512x8x1_S_d0_1_2_3 : S128x512x8x1.ReducesTo [0, 1, 2, 3] S_
  h_S_ : 0 < S_.numel
  bcast_S_S128x512x1x256 : S_.BroadcastsInDim S128x512x1x256 (![] : Fin 0 → Fin S128x512x1x256.rank)
  reducesTo_S128x512x1x256_S_d0_1_2_3 : S128x512x1x256.ReducesTo [0, 1, 2, 3] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg14 : FVec F S64x1 .f32) (main_arg15 : FVec F S1 .f32) (main_v63 : IVec S_ 1) (main_v67 : IVec S_ 1) : IVec S_ 1 :=
  let main_v68 : IVec S_ 1 := andi main_v63 main_v67
  let main_v69 : FVec F S64x1 .f32 := Host.absf main_arg14
  let main_cst_26 : FVec F S_ .f32 := constant S_ .f32 0x7F800000#32
  let main_v70 : FVec F S64x1 .f32 := broadcastInDim S64x1 ![] bcast_S_S64x1 main_cst_26
  let main_v71 : IVec S64x1 1 := cmpf .olt main_v69 main_v70
  let main_c_27 : IVec S_ 1 := constantI S_ 1 1#1
  let main_v72 : IVec S_ 1 := (fun x v => Host.reduce IntOp.andi x v reducesTo_S64x1_S_d0_1 h_S_) main_v71 main_c_27
  let main_v73 : IVec S_ 1 := andi main_v68 main_v72
  let main_v74 : FVec F S1 .f32 := Host.absf main_arg15
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg11 : FVec F S64 .f32) (main_arg12 : FVec F S256x64 .f32) (main_arg13 : FVec F S64 .f32) (main_arg14 : FVec F S64x1 .f32) (main_arg15 : FVec F S1 .f32) (main_v48 : IVec S_ 1) (main_v49 : FVec F S256x64 .f32) (main_v50 : FVec F S256x64 .f32) : IVec S_ 1 :=
  let main_v51 : IVec S256x64 1 := cmpf .olt main_v49 main_v50
  let main_c_19 : IVec S_ 1 := constantI S_ 1 1#1
  let main_v52 : IVec S_ 1 := (fun x v => Host.reduce IntOp.andi x v reducesTo_S256x64_S_d0_1 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S256x64 .f32 := Host.absf main_arg12
  let main_cst_22 : FVec F S_ .f32 := constant S_ .f32 0x7F800000#32
  let main_v60 : FVec F S256x64 .f32 := broadcastInDim S256x64 ![] bcast_S_S256x64 main_cst_22
  let main_v61 : IVec S256x64 1 := cmpf .olt main_v59 main_v60
  let main_c_23 : IVec S_ 1 := constantI S_ 1 1#1
  let main_v62 : IVec S_ 1 := (fun x v => Host.reduce IntOp.andi x v reducesTo_S256x64_S_d0_1 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg14 main_arg15 main_v63 main_v67

def fn_part2 {F : FTy → Type} [FloatOps F] (main_arg7 : FVec F S256 .f32) (main_arg8 : FVec F S256x64 .f32) (main_arg9 : FVec F S64 .f32) (main_arg10 : FVec F S256x64 .f32) (main_arg11 : FVec F S64 .f32) (main_arg12 : FVec F S256x64 .f32) (main_arg13 : FVec F S64 .f32) (main_arg14 : FVec F S64x1 .f32) (main_arg15 : FVec F S1 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x64 .f32 := Host.absf main_arg8
  let main_cst_14 : FVec F S_ .f32 := constant S_ .f32 0x7F800000#32
  let main_v40 : FVec F S256x64 .f32 := broadcastInDim S256x64 ![] bcast_S_S256x64 main_cst_14
  let main_v41 : IVec S256x64 1 := cmpf .olt main_v39 main_v40
  let main_c_15 : IVec S_ 1 := constantI S_ 1 1#1
  let main_v42 : IVec S_ 1 := (fun x v => Host.reduce IntOp.andi x v reducesTo_S256x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S256x64 .f32 := Host.absf main_arg10
  let main_cst_18 : FVec F S_ .f32 := constant S_ .f32 0x7F800000#32
  let main_v50 : FVec F S256x64 .f32 := broadcastInDim S256x64 ![] bcast_S_S256x64 main_cst_18
  fn_part3 (F := F) main_arg11 main_arg12 main_arg13 main_arg14 main_arg15 main_v48 main_v49 main_v50

def fn_part1 {F : FTy → Type} [FloatOps F] (main_arg4 : FVec F S256x512 .f32) (main_arg5 : FVec F S512 .f32) (main_arg6 : FVec F S256x256 .f32) (main_arg7 : FVec F S256 .f32) (main_arg8 : FVec F S256x64 .f32) (main_arg9 : FVec F S64 .f32) (main_arg10 : FVec F S256x64 .f32) (main_arg11 : FVec F S64 .f32) (main_arg12 : FVec F S256x64 .f32) (main_arg13 : FVec F S64 .f32) (main_arg14 : FVec F S64x1 .f32) (main_arg15 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x512 .f32 := Host.absf main_arg4
  let main_cst_6 : FVec F S_ .f32 := constant S_ .f32 0x7F800000#32
  let main_v20 : FVec F S256x512 .f32 := broadcastInDim S256x512 ![] bcast_S_S256x512 main_cst_6
  let main_v21 : IVec S256x512 1 := cmpf .olt main_v19 main_v20
  let main_c_7 : IVec S_ 1 := constantI S_ 1 1#1
  let main_v22 : IVec S_ 1 := (fun x v => Host.reduce IntOp.andi x v reducesTo_S256x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S128x512x8x1 .f32) (main_arg1 : FVec F S128x512x1x256 .f32) (main_arg2 : FVec F S256x256 .f32) (main_arg3 : FVec F S256 .f32) (main_arg4 : FVec F S256x512 .f32) (main_arg5 : FVec F S512 .f32) (main_arg6 : FVec F S256x256 .f32) (main_arg7 : FVec F S256 .f32) (main_arg8 : FVec F S256x64 .f32) (main_arg9 : FVec F S64 .f32) (main_arg10 : FVec F S256x64 .f32) (main_arg11 : FVec F S64 .f32) (main_arg12 : FVec F S256x64 .f32) (main_arg13 : FVec F S64 .f32) (main_arg14 : FVec F S64x1 .f32) (main_arg15 : FVec F S1 .f32) : IVec S_ 1 :=
  let main_v0 : FVec F S128x512x8x1 .f32 := Host.absf main_arg0
  let main_cst : FVec F S_ .f32 := constant S_ .f32 0x7F800000#32
  let main_v1 : FVec F S128x512x8x1 .f32 := broadcastInDim S128x512x8x1 ![] bcast_S_S128x512x8x1 main_cst
  let main_v2 : IVec S128x512x8x1 1 := cmpf .olt main_v0 main_v1
  let main_c : IVec S_ 1 := constantI S_ 1 1#1
  let main_v3 : IVec S_ 1 := (fun x v => Host.reduce IntOp.andi x v reducesTo_S128x512x8x1_S_d0_1_2_3 h_S_) main_v2 main_c
  let main_v4 : FVec F S128x512x1x256 .f32 := Host.absf main_arg1
  let main_cst_0 : FVec F S_ .f32 := constant S_ .f32 0x7F800000#32
  let main_v5 : FVec F S128x512x1x256 .f32 := broadcastInDim S128x512x1x256 ![] bcast_S_S128x512x1x256 main_cst_0
  let main_v6 : IVec S128x512x1x256 1 := cmpf .olt main_v4 main_v5
  let main_c_1 : IVec S_ 1 := constantI S_ 1 1#1
  let main_v7 : IVec S_ 1 := (fun x v => Host.reduce IntOp.andi x v reducesTo_S128x512x1x256_S_d0_1_2_3 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S128x512x8x1 : Shape := ⟨4, ![128, 512, 8, 1]⟩
abbrev S128x512x1x256 : Shape := ⟨4, ![128, 512, 1, 256]⟩
abbrev S256x256 : Shape := ⟨2, ![256, 256]⟩
abbrev S256 : Shape := ⟨1, ![256]⟩
abbrev S256x512 : Shape := ⟨2, ![256, 512]⟩
abbrev S512 : Shape := ⟨1, ![512]⟩
abbrev S256x64 : Shape := ⟨2, ![256, 64]⟩
abbrev S64 : Shape := ⟨1, ![64]⟩
abbrev S64x1 : Shape := ⟨2, ![64, 1]⟩
abbrev S1 : Shape := ⟨1, ![1]⟩
abbrev S65536x8 : Shape := ⟨2, ![65536, 8]⟩
abbrev S65536x256 : Shape := ⟨2, ![65536, 256]⟩
abbrev S1x256 : Shape := ⟨2, ![1, 256]⟩
abbrev S1x512 : Shape := ⟨2, ![1, 512]⟩
abbrev S1x64 : Shape := ⟨2, ![1, 64]⟩
abbrev S1x1 : Shape := ⟨2, ![1, 1]⟩
abbrev S65536x1 : Shape := ⟨2, ![65536, 1]⟩
abbrev S2048x256 : Shape := ⟨2, ![2048, 256]⟩
abbrev S2048x8 : Shape := ⟨2, ![2048, 8]⟩
abbrev S2048x1 : Shape := ⟨2, ![2048, 1]⟩
abbrev S2048x512 : Shape := ⟨2, ![2048, 512]⟩
abbrev S2048x64 : Shape := ⟨2, ![2048, 64]⟩
abbrev S2048 : Shape := ⟨1, ![2048]⟩
abbrev S128x512x1 : Shape := ⟨3, ![128, 512, 1]⟩

abbrev nBuf : Space → Nat
  | .hbm => 28
  | .vmem => 20
  | .smem => 0
  | _ => 0

abbrev bufTy : (tb : Table) → Fin (tcTables nBuf tb) → BufTy
  | .hbm, ⟨0, _⟩ => ⟨S128x512x8x1, .f32⟩
  | .hbm, ⟨1, _⟩ => ⟨S128x512x1x256, .f32⟩
  | .hbm, ⟨2, _⟩ => ⟨S256x256, .f32⟩
  | .hbm, ⟨3, _⟩ => ⟨S256, .f32⟩
  | .hbm, ⟨4, _⟩ => ⟨S256x512, .f32⟩
  | .hbm, ⟨5, _⟩ => ⟨S512, .f32⟩
  | .hbm, ⟨6, _⟩ => ⟨S256x256, .f32⟩
  | .hbm, ⟨7, _⟩ => ⟨S256, .f32⟩
  | .hbm, ⟨8, _⟩ => ⟨S256x64, .f32⟩
  | .hbm, ⟨9, _⟩ => ⟨S64, .f32⟩
  | .hbm, ⟨10, _⟩ => ⟨S256x64, .f32⟩
  | .hbm, ⟨11, _⟩ => ⟨S64, .f32⟩
  | .hbm, ⟨12, _⟩ => ⟨S256x64, .f32⟩
  | .hbm, ⟨13, _⟩ => ⟨S64, .f32⟩
  | .hbm, ⟨14, _⟩ => ⟨S64x1, .f32⟩
  | .hbm, ⟨15, _⟩ => ⟨S1, .f32⟩
  | .hbm, ⟨16, _⟩ => ⟨S65536x8, .f32⟩
  | .hbm, ⟨17, _⟩ => ⟨S65536x256, .f32⟩
  | .hbm, ⟨18, _⟩ => ⟨S1x256, .f32⟩
  | .hbm, ⟨19, _⟩ => ⟨S1x512, .f32⟩
  | .hbm, ⟨20, _⟩ => ⟨S1x256, .f32⟩
  | .hbm, ⟨21, _⟩ => ⟨S1x64, .f32⟩
  | .hbm, ⟨22, _⟩ => ⟨S1x64, .f32⟩
  | .hbm, ⟨23, _⟩ => ⟨S1x64, .f32⟩
  | .hbm, ⟨24, _⟩ => ⟨S1x64, .f32⟩
  | .hbm, ⟨25, _⟩ => ⟨S1x1, .f32⟩
  | .hbm, ⟨26, _⟩ => ⟨S65536x1, .f32⟩
  | .hbm, ⟨27, _⟩ => ⟨S128x512x1, .f32⟩
  | .local _ .vmem, ⟨0, _⟩ => ⟨S2048x256, .f32⟩
  | .local _ .vmem, ⟨1, _⟩ => ⟨S2048x256, .f32⟩
  | .local _ .vmem, ⟨2, _⟩ => ⟨S2048x8, .f32⟩
  | .local _ .vmem, ⟨3, _⟩ => ⟨S2048x8, .f32⟩
  | .local _ .vmem, ⟨4, _⟩ => ⟨S256x256, .f32⟩
  | .local _ .vmem, ⟨5, _⟩ => ⟨S1x256, .f32⟩
  | .local _ .vmem, ⟨6, _⟩ => ⟨S256x512, .f32⟩
  | .local _ .vmem, ⟨7, _⟩ => ⟨S1x512, .f32⟩
  | .local _ .vmem, ⟨8, _⟩ => ⟨S256x256, .f32⟩
  | .local _ .vmem, ⟨9, _⟩ => ⟨S1x256, .f32⟩
  | .local _ .vmem, ⟨10, _⟩ => ⟨S256x64, .f32⟩
  | .local _ .vmem, ⟨11, _⟩ => ⟨S1x64, .f32⟩
  | .local _ .vmem, ⟨12, _⟩ => ⟨S256x64, .f32⟩
  | .local _ .vmem, ⟨13, _⟩ => ⟨S1x64, .f32⟩
  | .local _ .vmem, ⟨14, _⟩ => ⟨S256x64, .f32⟩
  | .local _ .vmem, ⟨15, _⟩ => ⟨S1x64, .f32⟩
  | .local _ .vmem, ⟨16, _⟩ => ⟨S1x64, .f32⟩
  | .local _ .vmem, ⟨17, _⟩ => ⟨S1x1, .f32⟩
  | .local _ .vmem, ⟨18, _⟩ => ⟨S2048x1, .f32⟩
  | .local _ .vmem, ⟨19, _⟩ => ⟨S2048x1, .f32⟩
  | _, _ => ⟨S128x512x8x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg16_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem16_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S2048x1 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  shapeCasts_S128x512x8x1_S65536x8 : S128x512x8x1.ShapeCasts S65536x8
  shapeCasts_S128x512x1x256_S65536x256 : S128x512x1x256.ShapeCasts S65536x256
  shapeCasts_S256_S1x256 : S256.ShapeCasts S1x256
  shapeCasts_S512_S1x512 : S512.ShapeCasts S1x512
  shapeCasts_S64_S1x64 : S64.ShapeCasts S1x64
  shapeCasts_S64x1_S1x64 : S64x1.ShapeCasts S1x64
  shapeCasts_S1_S1x1 : S1.ShapeCasts S1x1
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S2048x8_S2048x8_0_0 : ∀ a, (![0, 0] : Fin 2 → Nat) a + S2048x8.size a ≤ S2048x8.size a
  h_S2048x8 : 0 < S2048x8.numel
  shapeCasts_S2048x8_S2048x8 : S2048x8.ShapeCasts S2048x8
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S256x512_S256x512_0_0 : ∀ a, (![0, 0] : Fin 2 → Nat) a + S256x512.size a ≤ S256x512.size a
  h_S256x512 : 0 < S256x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  slices_S2048x8_o0_0_S2048x1 : S2048x8.Slices ![0, 0] S2048x1
  slices_S2048x512_o0_0_S2048x64 : S2048x512.Slices ![0, 0] S2048x64
  broadcasts_S2048x1_S2048x64 : S2048x1.Broadcasts S2048x64
  slices_S2048x8_o0_1_S2048x1 : S2048x8.Slices ![0, 1] S2048x1
  slices_S2048x512_o0_64_S2048x64 : S2048x512.Slices ![0, 64] S2048x64
  slices_S2048x8_o0_2_S2048x1 : S2048x8.Slices ![0, 2] S2048x1
  slices_S2048x512_o0_128_S2048x64 : S2048x512.Slices ![0, 128] S2048x64
  slices_S2048x8_o0_3_S2048x1 : S2048x8.Slices ![0, 3] S2048x1
  slices_S2048x512_o0_192_S2048x64 : S2048x512.Slices ![0, 192] S2048x64
  slices_S2048x8_o0_4_S2048x1 : S2048x8.Slices ![0, 4] S2048x1
  slices_S2048x512_o0_256_S2048x64 : S2048x512.Slices ![0, 256] S2048x64
  slices_S2048x8_o0_5_S2048x1 : S2048x8.Slices ![0, 5] S2048x1
  slices_S2048x512_o0_320_S2048x64 : S2048x512.Slices ![0, 320] S2048x64
  slices_S2048x8_o0_6_S2048x1 : S2048x8.Slices ![0, 6] S2048x1
  slices_S2048x512_o0_384_S2048x64 : S2048x512.Slices ![0, 384] S2048x64
  slices_S2048x8_o0_7_S2048x1 : S2048x8.Slices ![0, 7] S2048x1
  slices_S2048x512_o0_448_S2048x64 : S2048x512.Slices ![0, 448] S2048x64
  reduces_S2048x64_S2048 : S2048x64.Reduces [1] S2048
  shapeCasts_S2048_S2048x1 : S2048.ShapeCasts S2048x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  shapeCasts_S65536x1_S128x512x1 : S65536x1.ShapeCasts S128x512x1
  dot_S2048x256_S256x256_S2048x256_1_0_0_1_n_n_wf : DotDims.WF S2048x256 S256x256 S2048x256 [1] [0] [0] [1] [] []
  dot_S2048x256_S256x512_S2048x512_1_0_0_1_n_n_wf : DotDims.WF S2048x256 S256x512 S2048x512 [1] [0] [0] [1] [] []
  dot_S2048x256_S256x64_S2048x64_1_0_0_1_n_n_wf : DotDims.WF S2048x256 S256x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S65536x256.size a
  hwx0_0 : ∀ i : grid0.Coords, EltTy.bits .f32 = 32 ∨ (Rect.block (s := S65536x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x8.size a ≤ S65536x8.size a
  hwx0_1 : ∀ i : grid0.Coords, EltTy.bits .f32 = 32 ∨ (Rect.block (s := S65536x8) S2048x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x512.size a ≤ S256x512.size a
  hwx0_4 : ∀ i : grid0.Coords, EltTy.bits .f32 = 32 ∨ (Rect.block (s := S256x512) S256x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .f32 = 32 ∨ (Rect.block (s := S256x256) S256x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x64.size a ≤ S256x64.size a
  hwx0_8 : ∀ i : grid0.Coords, EltTy.bits .f32 = 32 ∨ (Rect.block (s := S256x64) S256x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x64.size a ≤ S256x64.size a
  hwx0_10 : ∀ i : grid0.Coords, EltTy.bits .f32 = 32 ∨ (Rect.block (s := S256x64) S256x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x64.size a ≤ S1x64.size a
  hwx0_11 : ∀ i : grid0.Coords, EltTy.bits .f32 = 32 ∨ (Rect.block (s := S1x64) S1x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256x64.size a ≤ S256x64.size a
  hwx0_12 : ∀ i : grid0.Coords, EltTy.bits .f32 = 32 ∨ (Rect.block (s := S256x64) S256x64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x64.size a ≤ S1x64.size a
  hwx0_13 : ∀ i : grid0.Coords, EltTy.bits .f32 = 32 ∨ (Rect.block (s := S1x64) S1x64.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x64.size a ≤ S1x64.size a
  hwx0_14 : ∀ i : grid0.Coords, EltTy.bits .f32 = 32 ∨ (Rect.block (s := S1x64) S1x64.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x1.size a ≤ S1x1.size a
  hwx0_15 : ∀ i : grid0.Coords, EltTy.bits .f32 = 32 ∨ (Rect.block (s := S1x1) S1x1.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S2048x1.size a ≤ S65536x1.size a
  hwx0_16 : ∀ i : grid0.Coords, EltTy.bits .f32 = 32 ∨ (Rect.block (s := S65536x1) S2048x1.size (cc0_transform_16 i) (hinb0_16 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf
def dot_S2048x256_S256x64_S2048x64_1_0_0_1_n_n : DotDims S2048x256 S256x64 S2048x64 where
  lhsContracting := [1]
  rhsContracting := [0]
  lhsNonContracting := [0]
  rhsNonContracting := [1]
  lhsBatch := []
  rhsBatch := []
  wf := dot_S2048x256_S256x64_S2048x64_1_0_0_1_n_n_wf

abbrev win0_0 : Pipeline.Window sig grid0 :=
  Pipeline.Window.ofSpec (Memref.whole main_v1) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S256x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S256x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v6) S1x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S256x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v7) S1x64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v8) S1x64.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v9) S1x1.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v10) S2048x1.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S128x512x8x1 : Shape := ⟨4, ![128, 512, 8, 1]⟩
abbrev S128x512x1x256 : Shape := ⟨4, ![128, 512, 1, 256]⟩
abbrev S256x256 : Shape := ⟨2, ![256, 256]⟩
abbrev S256 : Shape := ⟨1, ![256]⟩
abbrev S256x512 : Shape := ⟨2, ![256, 512]⟩
abbrev S512 : Shape := ⟨1, ![512]⟩
abbrev S256x64 : Shape := ⟨2, ![256, 64]⟩
abbrev S64 : Shape := ⟨1, ![64]⟩
abbrev S64x1 : Shape := ⟨2, ![64, 1]⟩
abbrev S1 : Shape := ⟨1, ![1]⟩
abbrev S65536x1x8 : Shape := ⟨3, ![65536, 1, 8]⟩
abbrev S65536x256 : Shape := ⟨2, ![65536, 256]⟩
abbrev S1x256 : Shape := ⟨2, ![1, 256]⟩
abbrev S_ : Shape := ⟨0, ![]⟩
abbrev S65536x512 : Shape := ⟨2, ![65536, 512]⟩
abbrev S1x512 : Shape := ⟨2, ![1, 512]⟩
abbrev S65536x8x64 : Shape := ⟨3, ![65536, 8, 64]⟩
abbrev S65536x64 : Shape := ⟨2, ![65536, 64]⟩
abbrev S1x64 : Shape := ⟨2, ![1, 64]⟩
abbrev S65536x1x64 : Shape := ⟨3, ![65536, 1, 64]⟩
abbrev S65536x64x1 : Shape := ⟨3, ![65536, 64, 1]⟩
abbrev S65536x1 : Shape := ⟨2, ![65536, 1]⟩
abbrev S1x1 : Shape := ⟨2, ![1, 1]⟩
abbrev S65536x1x1 : Shape := ⟨3, ![65536, 1, 1]⟩
abbrev S128x512x1 : Shape := ⟨3, ![128, 512, 1]⟩

abbrev nBuf : Space → Nat
  | .hbm => 81
  | .vmem => 0
  | .smem => 0
  | _ => 0

abbrev bufTy : (tb : Table) → Fin (tcTables nBuf tb) → BufTy
  | .hbm, ⟨0, _⟩ => ⟨S128x512x8x1, .f32⟩
  | .hbm, ⟨1, _⟩ => ⟨S128x512x1x256, .f32⟩
  | .hbm, ⟨2, _⟩ => ⟨S256x256, .f32⟩
  | .hbm, ⟨3, _⟩ => ⟨S256, .f32⟩
  | .hbm, ⟨4, _⟩ => ⟨S256x512, .f32⟩
  | .hbm, ⟨5, _⟩ => ⟨S512, .f32⟩
  | .hbm, ⟨6, _⟩ => ⟨S256x256, .f32⟩
  | .hbm, ⟨7, _⟩ => ⟨S256, .f32⟩
  | .hbm, ⟨8, _⟩ => ⟨S256x64, .f32⟩
  | .hbm, ⟨9, _⟩ => ⟨S64, .f32⟩
  | .hbm, ⟨10, _⟩ => ⟨S256x64, .f32⟩
  | .hbm, ⟨11, _⟩ => ⟨S64, .f32⟩
  | .hbm, ⟨12, _⟩ => ⟨S256x64, .f32⟩
  | .hbm, ⟨13, _⟩ => ⟨S64, .f32⟩
  | .hbm, ⟨14, _⟩ => ⟨S64x1, .f32⟩
  | .hbm, ⟨15, _⟩ => ⟨S1, .f32⟩
  | .hbm, ⟨16, _⟩ => ⟨S65536x1x8, .f32⟩
  | .hbm, ⟨17, _⟩ => ⟨S65536x256, .f32⟩
  | .hbm, ⟨18, _⟩ => ⟨S65536x256, .f32⟩
  | .hbm, ⟨19, _⟩ => ⟨S1x256, .f32⟩
  | .hbm, ⟨20, _⟩ => ⟨S65536x256, .f32⟩
  | .hbm, ⟨21, _⟩ => ⟨S65536x256, .f32⟩
  | .hbm, ⟨22, _⟩ => ⟨S_, .f32⟩
  | .hbm, ⟨23, _⟩ => ⟨S65536x256, .f32⟩
  | .hbm, ⟨24, _⟩ => ⟨S65536x256, .f32⟩
  | .hbm, ⟨25, _⟩ => ⟨S65536x512, .f32⟩
  | .hbm, ⟨26, _⟩ => ⟨S1x512, .f32⟩
  | .hbm, ⟨27, _⟩ => ⟨S65536x512, .f32⟩
  | .hbm, ⟨28, _⟩ => ⟨S65536x512, .f32⟩
  | .hbm, ⟨29, _⟩ => ⟨S65536x512, .f32⟩
  | .hbm, ⟨30, _⟩ => ⟨S65536x8x64, .f32⟩
  | .hbm, ⟨31, _⟩ => ⟨S65536x64, .f32⟩
  | .hbm, ⟨32, _⟩ => ⟨S1x64, .f32⟩
  | .hbm, ⟨33, _⟩ => ⟨S65536x64, .f32⟩
  | .hbm, ⟨34, _⟩ => ⟨S65536x64, .f32⟩
  | .hbm, ⟨35, _⟩ => ⟨S65536x1x64, .f32⟩
  | .hbm, ⟨36, _⟩ => ⟨S65536x1x64, .f32⟩
  | .hbm, ⟨37, _⟩ => ⟨S65536x1x64, .f32⟩
  | .hbm, ⟨38, _⟩ => ⟨S_, .f32⟩
  | .hbm, ⟨39, _⟩ => ⟨S65536x1x64, .f32⟩
  | .hbm, ⟨40, _⟩ => ⟨S65536x1x64, .i1⟩
  | .hbm, ⟨41, _⟩ => ⟨S_, .f32⟩
  | .hbm, ⟨42, _⟩ => ⟨S65536x1x64, .f32⟩
  | .hbm, ⟨43, _⟩ => ⟨S65536x1x64, .i1⟩
  | .hbm, ⟨44, _⟩ => ⟨S_, .f32⟩
  | .hbm, ⟨45, _⟩ => ⟨S_, .f32⟩
  | .hbm, ⟨46, _⟩ => ⟨S65536x1x64, .f32⟩
  | .hbm, ⟨47, _⟩ => ⟨S65536x1x64, .f32⟩
  | .hbm, ⟨48, _⟩ => ⟨S65536x1x64, .f32⟩
  | .hbm, ⟨49, _⟩ => ⟨S_, .f32⟩
  | .hbm, ⟨50, _⟩ => ⟨S65536x1x64, .f32⟩
  | .hbm, ⟨51, _⟩ => ⟨S65536x1x64, .f32⟩
  | .hbm, ⟨52, _⟩ => ⟨S65536x1x64, .f32⟩
  | .hbm, ⟨53, _⟩ => ⟨S65536x256, .f32⟩
  | .hbm, ⟨54, _⟩ => ⟨S1x256, .f32⟩
  | .hbm, ⟨55, _⟩ => ⟨S65536x256, .f32⟩
  | .hbm, ⟨56, _⟩ => ⟨S65536x256, .f32⟩
  | .hbm, ⟨57, _⟩ => ⟨S_, .f32⟩
  | .hbm, ⟨58, _⟩ => ⟨S65536x256, .f32⟩
  | .hbm, ⟨59, _⟩ => ⟨S65536x256, .f32⟩
  | .hbm, ⟨60, _⟩ => ⟨S65536x64, .f32⟩
  | .hbm, ⟨61, _⟩ => ⟨S1x64, .f32⟩
  | .hbm, ⟨62, _⟩ => ⟨S65536x64, .f32⟩
  | .hbm, ⟨63, _⟩ => ⟨S65536x64, .f32⟩
  | .hbm, ⟨64, _⟩ => ⟨S65536x64, .f32⟩
  | .hbm, ⟨65, _⟩ => ⟨S65536x64x1, .f32⟩
  | .hbm, ⟨66, _⟩ => ⟨S65536x64, .f32⟩
  | .hbm, ⟨67, _⟩ => ⟨S1x64, .f32⟩
  | .hbm, ⟨68, _⟩ => ⟨S65536x64, .f32⟩
  | .hbm, ⟨69, _⟩ => ⟨S65536x64, .f32⟩
  | .hbm, ⟨70, _⟩ => ⟨S_, .f32⟩
  | .hbm, ⟨71, _⟩ => ⟨S65536x64, .f32⟩
  | .hbm, ⟨72, _⟩ => ⟨S65536x64, .f32⟩
  | .hbm, ⟨73, _⟩ => ⟨S65536x1, .f32⟩
  | .hbm, ⟨74, _⟩ => ⟨S1x1, .f32⟩
  | .hbm, ⟨75, _⟩ => ⟨S65536x1, .f32⟩
  | .hbm, ⟨76, _⟩ => ⟨S65536x1, .f32⟩
  | .hbm, ⟨77, _⟩ => ⟨S65536x1x1, .f32⟩
  | .hbm, ⟨78, _⟩ => ⟨S65536x1x1, .f32⟩
  | .hbm, ⟨79, _⟩ => ⟨S65536x1x1, .f32⟩
  | .hbm, ⟨80, _⟩ => ⟨S128x512x1, .f32⟩
  | _, _ => ⟨S128x512x8x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call0_cst : Ref sig .tc := ⟨.hbm, 22, rfl⟩
abbrev main_call0_v0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_call1_cst : Ref sig .tc := ⟨.hbm, 38, rfl⟩
abbrev main_call1_v0 : Ref sig .tc := ⟨.hbm, 39, rfl⟩
abbrev main_call1_v1 : Ref sig .tc := ⟨.hbm, 40, rfl⟩
abbrev main_call1_cst_0 : Ref sig .tc := ⟨.hbm, 41, rfl⟩
abbrev main_call1_v2 : Ref sig .tc := ⟨.hbm, 42, rfl⟩
abbrev main_call1_v3 : Ref sig .tc := ⟨.hbm, 43, rfl⟩
abbrev main_call1_cst_1 : Ref sig .tc := ⟨.hbm, 44, rfl⟩
abbrev main_call1_call0_v0 : Ref sig .tc := ⟨.hbm, 45, rfl⟩
abbrev main_call1_call0_v1 : Ref sig .tc := ⟨.hbm, 46, rfl⟩
abbrev main_call1_v4 : Ref sig .tc := ⟨.hbm, 47, rfl⟩
abbrev main_call1_v5 : Ref sig .tc := ⟨.hbm, 48, rfl⟩
abbrev main_call1_cst_2 : Ref sig .tc := ⟨.hbm, 49, rfl⟩
abbrev main_call1_v6 : Ref sig .tc := ⟨.hbm, 50, rfl⟩
abbrev main_call1_v7 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_call2_cst : Ref sig .tc := ⟨.hbm, 57, rfl⟩
abbrev main_call2_v0 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_call3_cst : Ref sig .tc := ⟨.hbm, 70, rfl⟩
abbrev main_call3_v0 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩

abbrev nD : Nat := 1
abbrev τ : Topo := Topo.v7x

variable {F : FTy → Type} [FloatOps F]

class Facts₀ : Prop where
  shapeCasts_S128x512x8x1_S65536x1x8 : S128x512x8x1.ShapeCasts S65536x1x8
  shapeCasts_S128x512x1x256_S65536x256 : S128x512x1x256.ShapeCasts S65536x256
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  bcast_S_S65536x256 : S_.BroadcastsInDim S65536x256 (![] : Fin 0 → Fin S65536x256.rank)
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  shapeCasts_S65536x512_S65536x8x64 : S65536x512.ShapeCasts S65536x8x64
  bcast_S64_S1x64_1 : S64.BroadcastsInDim S1x64 (![1] : Fin 1 → Fin S1x64.rank)
  bcast_S1x64_S65536x64_0_1 : S1x64.BroadcastsInDim S65536x64 (![0, 1] : Fin 2 → Fin S65536x64.rank)
  bcast_S65536x64_S65536x1x64_0_2 : S65536x64.BroadcastsInDim S65536x1x64 (![0, 2] : Fin 2 → Fin S65536x1x64.rank)
  bcast_S_S65536x1x64 : S_.BroadcastsInDim S65536x1x64 (![] : Fin 0 → Fin S65536x1x64.rank)
  bcast_S65536x64_S65536x64x1_0_1 : S65536x64.BroadcastsInDim S65536x64x1 (![0, 1] : Fin 2 → Fin S65536x64x1.rank)
  bcast_S_S65536x64 : S_.BroadcastsInDim S65536x64 (![] : Fin 0 → Fin S65536x64.rank)
  bcast_S1_S1x1_1 : S1.BroadcastsInDim S1x1 (![1] : Fin 1 → Fin S1x1.rank)
  bcast_S1x1_S65536x1_0_1 : S1x1.BroadcastsInDim S65536x1 (![0, 1] : Fin 2 → Fin S65536x1.rank)
  bcast_S65536x1_S65536x1x1_0_1 : S65536x1.BroadcastsInDim S65536x1x1 (![0, 1] : Fin 2 → Fin S65536x1x1.rank)
  shapeCasts_S65536x1x1_S128x512x1 : S65536x1x1.ShapeCasts S128x512x1
  dot_S65536x256_S256x256_S65536x256_1_0_0_1_n_n_wf : DotDims.WF S65536x256 S256x256 S65536x256 [1] [0] [0] [1] [] []
  dot_S65536x256_S256x512_S65536x512_1_0_0_1_n_n_wf : DotDims.WF S65536x256 S256x512 S65536x512 [1] [0] [0] [1] [] []
  dot_S65536x256_S256x64_S65536x64_1_0_0_1_n_n_wf : DotDims.WF S65536x256 S256x64 S65536x64 [1] [0] [0] [1] [] []
  dot_S65536x1x8_S65536x8x64_S65536x1x64_2_1_1_2_0_0_wf : DotDims.WF S65536x1x8 S65536x8x64 S65536x1x64 [2] [1] [1] [2] [0] [0]
  dot_S65536x64_S64x1_S65536x1_1_0_0_1_n_n_wf : DotDims.WF S65536x64 S64x1 S65536x1 [1] [0] [0] [1] [] []
  dot_S65536x1x64_S65536x64x1_S65536x1x1_2_1_1_2_0_0_wf : DotDims.WF S65536x1x64 S65536x64x1 S65536x1x1 [2] [1] [1] [2] [0] [0]

variable [Facts₀]

def dot_S65536x256_S256x256_S65536x256_1_0_0_1_n_n : DotDims S65536x256 S256x256 S65536x256 where
  lhsContracting := [1]
  rhsContracting := [0]
  lhsNonContracting := [0]
  rhsNonContracting := [1]
  lhsBatch := []
  rhsBatch := []
  wf := dot_S65536x256_S256x256_S65536x256_1_0_0_1_n_n_wf
def dot_S65536x256_S256x512_S65536x512_1_0_0_1_n_n : DotDims S65536x256 S256x512 S65536x512 where
  lhsContracting := [1]
  rhsContracting := [0]
  lhsNonContracting := [0]
  rhsNonContracting := [1]
  lhsBatch := []
  rhsBatch := []
  wf := dot_S65536x256_S256x512_S65536x512_1_0_0_1_n_n_wf
def dot_S65536x256_S256x64_S65536x64_1_0_0_1_n_n : DotDims S65536x256 S256x64 S65536x64 where
  lhsContracting := [1]
  rhsContracting := [0]
  lhsNonContracting := [0]
  rhsNonContracting := [1]
  lhsBatch := []
  rhsBatch := []
  wf := dot_S65536x256_S256x64_S65536x64_1_0_0_1_n_n_wf
def dot_S65536x1x8_S65536x8x64_S65536x1x64_2_1_1_2_0_0 : DotDims S65536x1x8 S65536x8x64 S65536x1x64 where
  lhsContracting := [2]
  rhsContracting := [1]
  lhsNonContracting := [1]
  rhsNonContracting := [2]
  lhsBatch := [0]
  rhsBatch := [0]
  wf := dot_S65536x1x8_S65536x8x64_S65536x1x64_2_1_1_2_0_0_wf
def dot_S65536x64_S64x1_S65536x1_1_0_0_1_n_n : DotDims S65536x64 S64x1 S65536x1 where
  lhsContracting := [1]
  rhsContracting := [0]
  lhsNonContracting := [0]
  rhsNonContracting := [1]
  lhsBatch := []
  rhsBatch := []
  wf := dot_S65536x64_S64x1_S65536x1_1_0_0_1_n_n_wf
def dot_S65536x1x64_S65536x64x1_S65536x1x1_2_1_1_2_0_0 : DotDims S65536x1x64 S65536x64x1 S65536x1x1 where
  lhsContracting := [2]
  rhsContracting := [1]
  lhsNonContracting := [1]
  rhsNonContracting := [2]
  lhsBatch := [0]
  rhsBatch := [0]
  wf := dot_S65536x1x64_S65536x64x1_S65536x1x1_2_1_1_2_0_0_wf

class Facts : Prop extends Facts₀ where

variable [Facts]
-- ==== Proof.LibContract.lean ====
/-
  A matrix product's contraction as a plain sum.

  A product of an [n0, K] matrix with a [K, n1] matrix whose dimension numbers contract the left operand's
  second axis with the right operand's first sums, at the result index (r, c), over the positions of a
  one-axis contraction shape. Re-indexed by that axis' coordinate it is the textbook sum
  ∑ k < K, l (r, k) · r (k, c). The statement is for any dimension record of those shapes: what the record
  owes is that it has one contracting axis of extent K (left axis 1, right axis 0) and that the two free
  axes read the result's coordinates.
-/
import Idealize.ShloMosaic.Lib.ValueIdx

noncomputable section

open scoped BigOperators

namespace Idealize.ShloMosaic.Contract2

open Idealize.ShloMosaic Idealize.ShloMosaic.ValueIdx

/-- The contraction sum of a matrix product at a result index is the sum over the shared coordinate. -/
theorem sum_contr_eq_sum_fin {n0 n1 K : ℕ} {M : Type*} [AddCommMonoid M] [Mul M]
    (D : DotDims (⟨2, ![n0, K]⟩ : Shape) (⟨2, ![K, n1]⟩ : Shape) (⟨2, ![n0, n1]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (l : (⟨2, ![n0, K]⟩ : Shape).Idx → M) (r : (⟨2, ![K, n1]⟩ : Shape).Idx → M) (j : (⟨2, ![n0, n1]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix2 (j 0) k := funext fun a => Fin.ext (by
    match a with
    | ⟨0, _⟩ => exact hl0 _ _
    | ⟨1, _⟩ => exact h1.trans hk)
  have er : D.rhsIdx j ((contrEquiv1 D K hr hs).symm k) = ix2 k (j 1) := funext fun a => Fin.ext (by
    match a with
    | ⟨0, _⟩ => exact h2.trans hk
    | ⟨1, _⟩ => exact hr1 _ _)
  exact congrArg₂ (· * ·) (congrArg l el) (congrArg r er)

end Idealize.ShloMosaic.Contract2

end
-- ==== Proof.LibDenseRow.lean ====
/-
  A dense layer of a graph network read at an entry, in the two spellings a program gives it.

  For a feature matrix x : [n, K], weights w : [K, N] and a bias row b : [1, N], entry (r, j) of the layer is
  (∑ k, x (r, k) · w (k, j)) + b (0, j). A vector program computes it as a matrix product into the zero
  accumulator plus the bias row spread over the n rows; a host program as a dot_general plus the bias row
  broadcast along axis 0. Both are that sum at every entry. The same holds for the bias step alone,
  x (r, j) + b (0, j). A bias row that is zero everywhere adds nothing, on every extended real.
  A vector [N] set under a unit axis by a reshape or by a broadcast is the same row.
-/
import Idealize.ShloMosaic.Lib.ValueIdx
import Idealize.ShloMosaic.Lib.ValueLayout
import Idealize.ShloMosaic.Lib.Pipeline.Value
import Idealize.ShloMosaic.PureOps.Ideal.Laws
import proofs.«180666_j25357486916099_2_alg».proof.Proof.LibContract

noncomputable section

open scoped BigOperators

namespace Idealize.ShloMosaic.GcnDense

open Idealize.ShloMosaic Idealize.ShloMosaic.ValueIdx

/-- Entry (r, j) of x · w + b for a bias row b : [1, N]. -/
def entry {n K N : ℕ} (x : (⟨2, ![n, K]⟩ : Shape).Idx → EReal) (w : (⟨2, ![K, N]⟩ : Shape).Idx → EReal)
    (b : (⟨2, ![1, N]⟩ : Shape).Idx → EReal) (r : Fin n) (j : Fin N) : EReal :=
  (∑ k : Fin K, x (ix2 r k) * w (ix2 k j)) + b (ix2 (0 : Fin 1) j)

/-- An entry of the layer depends on row r of x, column j of w and entry j of the bias only, whatever the row counts. -/
theorem entry_congr {n n' K N : ℕ} (x : (⟨2, ![n, K]⟩ : Shape).Idx → EReal) (w : (⟨2, ![K, N]⟩ : Shape).Idx → EReal)
    (b : (⟨2, ![1, N]⟩ : Shape).Idx → EReal) (x' : (⟨2, ![n', K]⟩ : Shape).Idx → EReal) (w' : (⟨2, ![K, N]⟩ : Shape).Idx → EReal)
    (b' : (⟨2, ![1, N]⟩ : Shape).Idx → EReal) (r : Fin n) (r' : Fin n') (j : Fin N)
    (h0 : ∀ k, x (ix2 r k) = x' (ix2 r' k)) (h1 : ∀ k, w (ix2 k j) = w' (ix2 k j))
    (h2 : b (ix2 (0 : Fin 1) j) = b' (ix2 (0 : Fin 1) j)) :
    entry x w b r j = entry x' w' b' r' j := by
  unfold entry
  rw [h2]
  exact congrArg (· + b' (ix2 (0 : Fin 1) j)) (Finset.sum_congr rfl fun k _ => by rw [h0 k, h1 k])

/-- A bias row broadcast along axis 0 reads, at (r, j), the row's entry j. -/
theorem bias_rows_apply {α : Type} {n N : ℕ} (h2 : (⟨2, ![1, N]⟩ : Shape).BroadcastsInDim ⟨2, ![n, N]⟩ ![0, 1])
    (b : (⟨2, ![1, N]⟩ : Shape).Idx → α) (r : Fin n) (j : Fin N) :
    broadcastInDim (⟨2, ![n, N]⟩ : Shape) ![0, 1] h2 b (ix2 r j) = b (ix2 (0 : Fin 1) j) := by
  refine broadcastInDim_apply _ h2 b (ix2 r j) (ix2 (0 : Fin 1) j) (fun x => ?_)
  match x with
  | ⟨0, _⟩ =>
    show 0 = if (1 : Nat) = 1 then 0 else r.val
    rw [if_pos rfl]
  | ⟨1, _⟩ =>
    show j.val = if N = 1 then 0 else j.val
    split_ifs with h
    · have := j.isLt; omega
    · rfl

/-- The layer as a vector program computes it. -/
theorem kernel_layer_apply {n K N : ℕ} {φ₁ φ₂ : FTy}
    (D : DotDims (⟨2, ![n, K]⟩ : Shape) (⟨2, ![K, N]⟩ : Shape) (⟨2, ![n, N]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (prec : Option ContractPrecision)
    (x : FVec Ideal (⟨2, ![n, K]⟩ : Shape) φ₁) (w : FVec Ideal (⟨2, ![K, N]⟩ : Shape) φ₂)
    (b : FVec Ideal (⟨2, ![1, N]⟩ : Shape) .f32)
    (hc : (⟨2, ![1, N]⟩ : Shape).ShapeCasts ⟨2, ![1, N]⟩) (hb : (⟨2, ![1, N]⟩ : Shape).Broadcasts ⟨2, ![n, N]⟩)
    (r : Fin n) (j : Fin N) :
    addf (matmul D prec x w (constant (F := Ideal) (⟨2, ![n, N]⟩ : Shape) .f32 0x00000000#32))
        (broadcastTo (⟨2, ![n, N]⟩ : Shape) (shapeCast (⟨2, ![1, N]⟩ : Shape) b hc) hb) (ix2 r j)
      = entry x w b r j := by
  rw [addf_apply, broadcastTo_1b_ab_apply, shapeCast_self]
  refine congrArg (· + b (ix2 (0 : Fin 1) j)) ?_
  refine (Ideal.matmul_constant_zero_apply D prec x w (ix2 r j)).trans ?_
  exact Contract2.sum_contr_eq_sum_fin D hr hs hlc hrc hl0 hr1 x w (ix2 r j)

/-- The layer as a host program computes it. -/
theorem host_layer_apply {n K N : ℕ} {φ₁ φ₂ : FTy}
    (D : DotDims (⟨2, ![n, K]⟩ : Shape) (⟨2, ![K, N]⟩ : Shape) (⟨2, ![n, N]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (prec : Option ContractPrecision)
    (x : FVec Ideal (⟨2, ![n, K]⟩ : Shape) φ₁) (w : FVec Ideal (⟨2, ![K, N]⟩ : Shape) φ₂)
    (b : FVec Ideal (⟨2, ![1, N]⟩ : Shape) .f32)
    (h2 : (⟨2, ![1, N]⟩ : Shape).BroadcastsInDim ⟨2, ![n, N]⟩ ![0, 1])
    (r : Fin n) (j : Fin N) :
    addf (Host.dotGeneral D prec x w) (broadcastInDim (⟨2, ![n, N]⟩ : Shape) ![0, 1] h2 b) (ix2 r j)
      = entry x w b r j := by
  rw [addf_apply, bias_rows_apply h2 b r j]
  refine congrArg (· + b (ix2 (0 : Fin 1) j)) ?_
  simp only [Host.dotGeneral]
  refine (Ideal.dotGeneral_apply D prec _ x w (ix2 r j)).trans ?_
  exact Contract2.sum_contr_eq_sum_fin D hr hs hlc hrc hl0 hr1 x w (ix2 r j)

/-- The bias step as a vector program computes it: x (r, j) + b (0, j). -/
theorem kernel_bias_apply {n N : ℕ}
    (x : FVec Ideal (⟨2, ![n, N]⟩ : Shape) .f32) (b : FVec Ideal (⟨2, ![1, N]⟩ : Shape) .f32)
    (hx : (⟨2, ![n, N]⟩ : Shape).ShapeCasts ⟨2, ![n, N]⟩)
    (hc : (⟨2, ![1, N]⟩ : Shape).ShapeCasts ⟨2, ![1, N]⟩) (hb : (⟨2, ![1, N]⟩ : Shape).Broadcasts ⟨2, ![n, N]⟩)
    (r : Fin n) (j : Fin N) :
    addf (shapeCast (⟨2, ![n, N]⟩ : Shape) x hx)
        (broadcastTo (⟨2, ![n, N]⟩ : Shape) (shapeCast (⟨2, ![1, N]⟩ : Shape) b hc) hb) (ix2 r j)
      = x (ix2 r j) + b (ix2 (0 : Fin 1) j) := by
  rw [addf_apply, broadcastTo_1b_ab_apply, shapeCast_self, shapeCast_self]

/-- The bias step as a host program computes it. -/
theorem host_bias_apply {n N : ℕ}
    (x : FVec Ideal (⟨2, ![n, N]⟩ : Shape) .f32) (b : FVec Ideal (⟨2, ![1, N]⟩ : Shape) .f32)
    (h2 : (⟨2, ![1, N]⟩ : Shape).BroadcastsInDim ⟨2, ![n, N]⟩ ![0, 1]) (r : Fin n) (j : Fin N) :
    addf x (broadcastInDim (⟨2, ![n, N]⟩ : Shape) ![0, 1] h2 b) (ix2 r j) = x (ix2 r j) + b (ix2 (0 : Fin 1) j) := by
  rw [addf_apply, bias_rows_apply h2 b r j]

/-- A vector set under a unit axis by a reshape is the vector set there by a broadcast. -/
theorem row_reshape_eq_broadcast {α : Type} {N : ℕ} (v : (⟨1, ![N]⟩ : Shape).Idx → α)
    (hc : (⟨1, ![N]⟩ : Shape).ShapeCasts ⟨2, ![1, N]⟩) (h1 : (⟨1, ![N]⟩ : Shape).BroadcastsInDim ⟨2, ![1, N]⟩ ![1]) :
    shapeCast (⟨2, ![1, N]⟩ : Shape) v hc = broadcastInDim (⟨2, ![1, N]⟩ : Shape) ![1] h1 v := by
  funext i
  obtain ⟨p, q, rfl⟩ : ∃ (p : Fin 1) (q : Fin N), i = ix2 p q := ⟨i 0, i 1, eq_ix2 i⟩
  have hp : p = 0 := Subsingleton.elim _ _
  subst hp
  rw [shapeCast_a_1a_apply]
  refine (broadcastInDim_apply _ h1 v (ix2 (0 : Fin 1) q) (ix1 q) (fun x => ?_)).symm
  match x with
  | ⟨0, _⟩ =>
    show q.val = if N = 1 then 0 else q.val
    split_ifs with h
    · have := q.isLt; omega
    · rfl

/-- Adding a bias row that is the zero constant, spread from a scalar to [N], set under a unit axis and broadcast
    down the rows, changes nothing: x + 0 = x on every extended real. -/
theorem add_zero_row {n N : ℕ} (x : FVec Ideal (⟨2, ![n, N]⟩ : Shape) .f32)
    (h0 : (⟨0, ![]⟩ : Shape).BroadcastsInDim ⟨1, ![N]⟩ ![])
    (hc : (⟨1, ![N]⟩ : Shape).ShapeCasts ⟨2, ![1, N]⟩)
    (h2 : (⟨2, ![1, N]⟩ : Shape).BroadcastsInDim ⟨2, ![n, N]⟩ ![0, 1]) :
    addf x (broadcastInDim (⟨2, ![n, N]⟩ : Shape) ![0, 1] h2
      (shapeCast (⟨2, ![1, N]⟩ : Shape)
        (broadcastInDim (⟨1, ![N]⟩ : Shape) ![] h0 (constant (F := Ideal) (⟨0, ![]⟩ : Shape) .f32 0x00000000#32)) hc)) = x := by
  funext i
  obtain ⟨r, j, rfl⟩ : ∃ (r : Fin n) (j : Fin N), i = ix2 r j := ⟨i 0, i 1, eq_ix2 i⟩
  rw [addf_apply, bias_rows_apply h2 _ r j, shapeCast_a_1a_apply]
  rw [broadcastInDim_apply _ h0 _ (ix1 j) (fun a => a.elim0) (fun a => a.elim0)]
  rw [constant_apply, Ideal.ofBits_zero_f32, add_zero]

end Idealize.ShloMosaic.GcnDense

end
-- ==== Proof.LibPerceptron.lean ====
/-
  A three-layer perceptron on the extended reals.

  For a batch x : [n, d0], weights w1 : [d0, d1], w2 : [d1, d2], w3 : [d2, d3] and bias rows b1, b2, b3,
  a hidden layer is the dense layer x · w + b followed by the rectifier max(·, 0), entry by entry, and the
  network's output at (r, j) is tanh of the third dense layer's entry over the two hidden layers. Row r of
  the output depends on row r of the batch only: that is what lets a batch be cut into row tiles of any
  height and each tile be computed on its own.
-/
import proofs.«180666_j25357486916099_2_alg».proof.Proof.LibDenseRow

noncomputable section

open scoped BigOperators

namespace Cert.Perceptron

open Idealize.ShloMosaic Idealize.ShloMosaic.ValueIdx Idealize.ShloMosaic.GcnDense

/-- The rectifier's threshold: the all-zero single-precision word as an extended real. -/
abbrev zeroWord : EReal := Ideal.ofBits .f32 0x00000000#32

/-- A hidden layer: the dense layer's entry, rectified. -/
def hidden {n K N : ℕ} (x : (⟨2, ![n, K]⟩ : Shape).Idx → EReal) (w : (⟨2, ![K, N]⟩ : Shape).Idx → EReal)
    (b : (⟨2, ![1, N]⟩ : Shape).Idx → EReal) : (⟨2, ![n, N]⟩ : Shape).Idx → EReal :=
  fun i => max (entry x w b (i 0) (i 1)) zeroWord

theorem hidden_ix2 {n K N : ℕ} (x : (⟨2, ![n, K]⟩ : Shape).Idx → EReal) (w : (⟨2, ![K, N]⟩ : Shape).Idx → EReal)
    (b : (⟨2, ![1, N]⟩ : Shape).Idx → EReal) (r : Fin n) (j : Fin N) :
    hidden x w b (ix2 r j) = max (entry x w b r j) zeroWord := rfl

/-- Row r of a hidden layer depends on row r of its input only, whatever the two row counts. -/
theorem hidden_congr {n n' K N : ℕ} (x : (⟨2, ![n, K]⟩ : Shape).Idx → EReal) (x' : (⟨2, ![n', K]⟩ : Shape).Idx → EReal)
    (w : (⟨2, ![K, N]⟩ : Shape).Idx → EReal) (b : (⟨2, ![1, N]⟩ : Shape).Idx → EReal) (r : Fin n) (r' : Fin n')
    (h : ∀ k, x (ix2 r k) = x' (ix2 r' k)) (j : Fin N) :
    hidden x w b (ix2 r j) = hidden x' w b (ix2 r' j) := by
  rw [hidden_ix2, hidden_ix2, entry_congr x w b x' w b r r' j h (fun _ => rfl) rfl]

/-- A dense layer as a vector program computes it — a matrix product into the zero accumulator plus the bias row
    spread over the rows — is, at (r, j), the layer's entry. -/
theorem dense_apply {n K N : ℕ} {φ₁ φ₂ : FTy}
    (D : DotDims (⟨2, ![n, K]⟩ : Shape) (⟨2, ![K, N]⟩ : Shape) (⟨2, ![n, N]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (prec : Option ContractPrecision)
    (x : FVec Ideal (⟨2, ![n, K]⟩ : Shape) φ₁) (w : FVec Ideal (⟨2, ![K, N]⟩ : Shape) φ₂)
    (b : FVec Ideal (⟨2, ![1, N]⟩ : Shape) .f32) (hb : (⟨2, ![1, N]⟩ : Shape).Broadcasts ⟨2, ![n, N]⟩)
    (r : Fin n) (j : Fin N) :
    addf (matmul D prec x w (constant (F := Ideal) (⟨2, ![n, N]⟩ : Shape) .f32 0x00000000#32))
        (broadcastTo (⟨2, ![n, N]⟩ : Shape) b hb) (ix2 r j)
      = entry x w b r j := by
  rw [addf_apply, broadcastTo_1b_ab_apply]
  refine congrArg (· + b (ix2 (0 : Fin 1) j)) ?_
  refine (Ideal.matmul_constant_zero_apply D prec x w (ix2 r j)).trans ?_
  exact Contract2.sum_contr_eq_sum_fin D hr hs hlc hrc hl0 hr1 x w (ix2 r j)

/-- The same followed by the rectifier against the zero word spread over the block: the hidden layer's entry. -/
theorem hidden_apply {n K N : ℕ} {φ₁ φ₂ : FTy}
    (D : DotDims (⟨2, ![n, K]⟩ : Shape) (⟨2, ![K, N]⟩ : Shape) (⟨2, ![n, N]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (prec : Option ContractPrecision)
    (x : FVec Ideal (⟨2, ![n, K]⟩ : Shape) φ₁) (w : FVec Ideal (⟨2, ![K, N]⟩ : Shape) φ₂)
    (b : FVec Ideal (⟨2, ![1, N]⟩ : Shape) .f32) (hb : (⟨2, ![1, N]⟩ : Shape).Broadcasts ⟨2, ![n, N]⟩)
    (r : Fin n) (j : Fin N) :
    maximumf (addf (matmul D prec x w (constant (F := Ideal) (⟨2, ![n, N]⟩ : Shape) .f32 0x00000000#32))
        (broadcastTo (⟨2, ![n, N]⟩ : Shape) b hb))
      (broadcast (⟨2, ![n, N]⟩ : Shape) (Scalar.ofBits (F := Ideal) .f32 0x00000000#32)) (ix2 r j)
      = hidden x w b (ix2 r j) := by
  rw [maximumf_apply, broadcast_apply, dense_apply D hr hs hlc hrc hl0 hr1 prec x w b hb r j, hidden_ix2]
  rfl

/-- The network's output at row r, column j. -/
def out {n d0 d1 d2 d3 : ℕ} (x : (⟨2, ![n, d0]⟩ : Shape).Idx → EReal)
    (w1 : (⟨2, ![d0, d1]⟩ : Shape).Idx → EReal) (b1 : (⟨2, ![1, d1]⟩ : Shape).Idx → EReal)
    (w2 : (⟨2, ![d1, d2]⟩ : Shape).Idx → EReal) (b2 : (⟨2, ![1, d2]⟩ : Shape).Idx → EReal)
    (w3 : (⟨2, ![d2, d3]⟩ : Shape).Idx → EReal) (b3 : (⟨2, ![1, d3]⟩ : Shape).Idx → EReal)
    (r : Fin n) (j : Fin d3) : EReal :=
  Ideal.tanh (entry (hidden (hidden x w1 b1) w2 b2) w3 b3 r j)

/-- Row r of the output depends on row r of the batch only. -/
theorem out_congr {n n' d0 d1 d2 d3 : ℕ} (x : (⟨2, ![n, d0]⟩ : Shape).Idx → EReal) (x' : (⟨2, ![n', d0]⟩ : Shape).Idx → EReal)
    (w1 : (⟨2, ![d0, d1]⟩ : Shape).Idx → EReal) (b1 : (⟨2, ![1, d1]⟩ : Shape).Idx → EReal)
    (w2 : (⟨2, ![d1, d2]⟩ : Shape).Idx → EReal) (b2 : (⟨2, ![1, d2]⟩ : Shape).Idx → EReal)
    (w3 : (⟨2, ![d2, d3]⟩ : Shape).Idx → EReal) (b3 : (⟨2, ![1, d3]⟩ : Shape).Idx → EReal)
    (r : Fin n) (r' : Fin n') (h : ∀ k, x (ix2 r k) = x' (ix2 r' k)) (j : Fin d3) :
    out x w1 b1 w2 b2 w3 b3 r j = out x' w1 b1 w2 b2 w3 b3 r' j := by
  unfold out
  refine congrArg Ideal.tanh (entry_congr _ _ _ _ _ _ r r' j (fun k => ?_) (fun _ => rfl) rfl)
  exact hidden_congr _ _ w2 b2 r r' (fun k' => hidden_congr x x' w1 b1 r r' h k') k

/-- The first a columns of the output, as one array over the whole batch. -/
def outCols {n d0 d1 d2 d3 a : ℕ} (ha : a ≤ d3) (x : (⟨2, ![n, d0]⟩ : Shape).Idx → EReal)
    (w1 : (⟨2, ![d0, d1]⟩ : Shape).Idx → EReal) (b1 : (⟨2, ![1, d1]⟩ : Shape).Idx → EReal)
    (w2 : (⟨2, ![d1, d2]⟩ : Shape).Idx → EReal) (b2 : (⟨2, ![1, d2]⟩ : Shape).Idx → EReal)
    (w3 : (⟨2, ![d2, d3]⟩ : Shape).Idx → EReal) (b3 : (⟨2, ![1, d3]⟩ : Shape).Idx → EReal) :
    (⟨2, ![n, a]⟩ : Shape).Idx → EReal :=
  fun i => out x w1 b1 w2 b2 w3 b3 (i 0) (Fin.castLE ha (i 1))

end Cert.Perceptron

end
-- ==== Proof.LibColumn.lean ====
/-
  A column kept as a unit trailing axis (what `jnp.sum(…, keepdims=True)` over the last axis produces), read at an
  index: a vector of length a viewed as an [a, 1] column, and an [a, 1] column broadcast along the rows of an
  [a, b] matrix. (The library has the leading-unit-axis forms and the row broadcast [1, b] → [a, b]; these are the
  trailing-unit-axis counterparts, for any extents.)
-/
import Idealize.ShloMosaic.Lib.Pipeline.Value
import Idealize.ShloMosaic.Lib.ValueIdx

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibRowSum.lean ====
/-
  A sum along the rows of a matrix, read at an index on the extended reals: a lane reduction of an [n, k] matrix
  over its columns, into the zero accumulator, is at row r the sum over the k columns of the row's entries.
-/
import Idealize.ShloMosaic.PureOps.Ideal.Laws
import Idealize.ShloMosaic.Lib.ValueIdx

namespace Idealize.ShloMosaic.ValueIdx

open Idealize.ShloMosaic

/-- The reduced index `r` with the column `d` put back is the matrix index `(r, d)`. -/
theorem lift_rows {n k : ℕ} (h : (⟨2, ![n, k]⟩ : Shape).Reduces [1] ⟨1, ![n]⟩) (r : Fin n) (d : Fin k) :
    h.lift (ix1 r) d = ix2 r d :=
  funext fun a => Fin.ext (by match a with | ⟨0, _⟩ => rfl | ⟨1, _⟩ => rfl)

/-- A float lane sum over the columns of an `[n, k]` matrix, at row `r`, is the sum of the row's `k` entries. -/
theorem multiReduction_add_rows_apply {n k : ℕ} (src : FVec Ideal ⟨2, ![n, k]⟩ .f32)
    (h : (⟨2, ![n, k]⟩ : Shape).Reduces [1] ⟨1, ![n]⟩) (hφ : FKind.Formats .f32)
    (hacc : (0x00000000#32 : BitVec 32) = FKind.add.neutral .f32 hφ) (r : Fin n) :
    multiReduction .add [1] ⟨1, ![n]⟩ src 0x00000000#32 h hφ hacc (ix1 r) = ∑ d : Fin k, src (ix2 r d) :=
  (Ideal.multiReduction_add_single src 0x00000000#32 h hφ hacc (ix1 r)).trans
    (Finset.sum_congr rfl fun d _ => congrArg src (lift_rows h r d))

end Idealize.ShloMosaic.ValueIdx
-- ==== Proof.LibHiddenLayers.lean ====
/-
  Layers of the mixing network as the two programs spell them, read as whole functions, for any extents.

  A rectified dense layer is the same function of its input whether a vector program computes it (a matrix
  product into the zero accumulator, the bias row spread over the rows through an identity cast, a maximum
  against the splat zero) or a host program does (a dot_general, the bias row broadcast along axis 0, a
  maximum against the zero constant spread from a scalar). A slice of one column, or of a band of columns,
  of a matrix reads the matrix at the shifted column. The single-precision word 0x3F800000 is the real 1.
-/
import proofs.«180666_j25357486916099_2_alg».proof.Proof.LibPerceptron
import proofs.«180666_j25357486916099_2_alg».proof.Proof.LibColumn
import proofs.«180666_j25357486916099_2_alg».proof.Proof.LibRowSum

noncomputable section

open scoped BigOperators

namespace Cert.Layers

open Idealize.ShloMosaic Idealize.ShloMosaic.ValueIdx Idealize.ShloMosaic.GcnDense Cert.Perceptron

/-- The word 0x3F800000 denotes 1. -/
theorem ofBits_one_f32 : Ideal.ofBits .f32 0x3F800000#32 = 1 := by
  have h : Ideal.ofBits .f32 0x3F800000#32 = ((1 : ℝ) : EReal) := by
    simp [Ideal.ofBits, Ideal.ieee, -EReal.coe_mul]; norm_num
  rw [h]; rfl

section Layers

variable {n K N : ℕ} {φ₁ φ₂ : FTy}

/-- A rectified dense layer as a vector program computes it, the bias row passed through an identity cast. -/
theorem kernel_hidden_eq
    (D : DotDims (⟨2, ![n, K]⟩ : Shape) (⟨2, ![K, N]⟩ : Shape) (⟨2, ![n, N]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (prec : Option ContractPrecision)
    (x : FVec Ideal (⟨2, ![n, K]⟩ : Shape) φ₁) (w : FVec Ideal (⟨2, ![K, N]⟩ : Shape) φ₂)
    (b : FVec Ideal (⟨2, ![1, N]⟩ : Shape) .f32)
    (hc : (⟨2, ![1, N]⟩ : Shape).ShapeCasts ⟨2, ![1, N]⟩) (hb : (⟨2, ![1, N]⟩ : Shape).Broadcasts ⟨2, ![n, N]⟩) :
    maximumf (addf (matmul D prec x w (constant (F := Ideal) (⟨2, ![n, N]⟩ : Shape) .f32 0x00000000#32))
        (broadcastTo (⟨2, ![n, N]⟩ : Shape) (shapeCast (⟨2, ![1, N]⟩ : Shape) b hc) hb))
      (broadcast (⟨2, ![n, N]⟩ : Shape) (Scalar.ofBits (F := Ideal) .f32 0x00000000#32))
      = hidden x w b := by
  funext i
  obtain ⟨r, j, rfl⟩ : ∃ (r : Fin n) (j : Fin N), i = ix2 r j := ⟨i 0, i 1, eq_ix2 i⟩
  rw [shapeCast_self]
  exact hidden_apply D hr hs hlc hrc hl0 hr1 prec x w b hb r j

/-- A rectified dense layer as a host program computes it. -/
theorem host_hidden_eq
    (D : DotDims (⟨2, ![n, K]⟩ : Shape) (⟨2, ![K, N]⟩ : Shape) (⟨2, ![n, N]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (prec : Option ContractPrecision)
    (x : FVec Ideal (⟨2, ![n, K]⟩ : Shape) φ₁) (w : FVec Ideal (⟨2, ![K, N]⟩ : Shape) φ₂)
    (b : FVec Ideal (⟨2, ![1, N]⟩ : Shape) .f32)
    (h2 : (⟨2, ![1, N]⟩ : Shape).BroadcastsInDim ⟨2, ![n, N]⟩ ![0, 1])
    (h0 : (⟨0, ![]⟩ : Shape).BroadcastsInDim ⟨2, ![n, N]⟩ ![]) :
    maximumf (addf (Host.dotGeneral D prec x w) (broadcastInDim (⟨2, ![n, N]⟩ : Shape) ![0, 1] h2 b))
      (broadcastInDim (⟨2, ![n, N]⟩ : Shape) ![] h0 (constant (F := Ideal) (⟨0, ![]⟩ : Shape) .f32 0x00000000#32))
      = hidden x w b := by
  funext i
  obtain ⟨r, j, rfl⟩ : ∃ (r : Fin n) (j : Fin N), i = ix2 r j := ⟨i 0, i 1, eq_ix2 i⟩
  rw [maximumf_apply, host_layer_apply D hr hs hlc hrc hl0 hr1 prec x w b h2 r j,
    broadcastInDim_apply _ h0 _ (ix2 r j) (fun a => a.elim0) (fun a => a.elim0), constant_apply, hidden_ix2]

/-- A dense layer as a host program computes it, as a function of the entry. -/
theorem host_dense_apply
    (D : DotDims (⟨2, ![n, K]⟩ : Shape) (⟨2, ![K, N]⟩ : Shape) (⟨2, ![n, N]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (prec : Option ContractPrecision)
    (x : FVec Ideal (⟨2, ![n, K]⟩ : Shape) φ₁) (w : FVec Ideal (⟨2, ![K, N]⟩ : Shape) φ₂)
    (b : FVec Ideal (⟨2, ![1, N]⟩ : Shape) .f32)
    (h2 : (⟨2, ![1, N]⟩ : Shape).BroadcastsInDim ⟨2, ![n, N]⟩ ![0, 1]) (r : Fin n) (j : Fin N) :
    addf (Host.dotGeneral D prec x w) (broadcastInDim (⟨2, ![n, N]⟩ : Shape) ![0, 1] h2 b) (ix2 r j) = entry x w b r j :=
  host_layer_apply D hr hs hlc hrc hl0 hr1 prec x w b h2 r j

end Layers

section Slices

variable {α : Type} {n m w : ℕ}

/-- A band of w columns starting at column off of an [n, m] matrix reads, at (r, j), the matrix at (r, off + j). -/
theorem slice_cols_apply (off : ℕ) (v : (⟨2, ![n, m]⟩ : Shape).Idx → α)
    (h : (⟨2, ![n, m]⟩ : Shape).Slices ![0, off] ⟨2, ![n, w]⟩) (r : Fin n) (j : Fin w) (k : Fin m) (hk : k.val = off + j.val) :
    extractStridedSlice (⟨2, ![n, w]⟩ : Shape) ![0, off] v h (ix2 r j) = v (ix2 r k) :=
  extractStridedSlice_apply _ v h (ix2 r j) (ix2 r k) (fun a => by
    match a with
    | ⟨0, _⟩ => show r.val = 0 + r.val; omega
    | ⟨1, _⟩ => show k.val = off + j.val; exact hk)

end Slices

end Cert.Layers

end
-- ==== Proof.Mixer.lean ====
/-
  The mixing network of this certificate, row by row, on the extended reals.

  For a row r of the state matrix x : [n, 256] and of the agents' values q : [n, 8]:
    w1 (r, c)  = | (relu (x · W1a + b1a) · W1b + b1b) (r, c) |,  c < 512, read as eight groups of 64 columns;
    pre (r, j) = ∑ a < 8, q (r, a) · w1 (r, 64 a + j)  +  (x · Wb1 + bb1) (r, j);
    elu y      = y where y > 0, else exp y − 1;
    w2 (r, j)  = | (relu (x · W2a + b2a) · W2b + b2b) (r, j) |;
    b2 r       = ∑ j < 64, relu (x · Wb2a + bb2a) (r, j) · wrow (0, j)  +  bb2 (0, 0);
    out r      = ∑ j < 64, elu (pre (r, j)) · w2 (r, j)  +  b2 r.
  Every bias is a row [1, N]. Row r of the result depends on row r of x and of q only (out_congr), so the
  rows can be computed in tiles of any height.
-/
import proofs.«180666_j25357486916099_2_alg».proof.Proof.LibPerceptron

noncomputable section

open scoped BigOperators

namespace Cert.Mixer

open Idealize.ShloMosaic Idealize.ShloMosaic.ValueIdx Idealize.ShloMosaic.GcnDense Cert.Perceptron

/-- An extended-real matrix with a rows and b columns. -/
abbrev Mat (a b : ℕ) := (⟨2, ![a, b]⟩ : Shape).Idx → EReal

/-- The absolute value on the extended reals. -/
def absE (y : EReal) : EReal := max y (-y)

/-- The exponential linear unit: y above zero, exp y − 1 otherwise. -/
def elu (y : EReal) : EReal := Scalar.select (Ideal.cmp .ogt y zeroWord) y (Ideal.exp y - 1)

/-- Column j of group a among the 512 columns. -/
def col (a : Fin 8) (j : Fin 64) : Fin 512 := ⟨a.val * 64 + j.val, by have := a.isLt; have := j.isLt; omega⟩

/-- The first hypernetwork's weight at row r, column c: the absolute value of the second dense layer over the
    rectified first. -/
def w1 {n : ℕ} (x : Mat n 256) (W1a : Mat 256 256) (b1a : Mat 1 256) (W1b : Mat 256 512) (b1b : Mat 1 512)
    (r : Fin n) (c : Fin 512) : EReal :=
  absE (entry (hidden x W1a b1a) W1b b1b r c)

/-- The hidden pre-activation: the agents' values weighted group by group, plus the state's bias layer. -/
def pre {n : ℕ} (x : Mat n 256) (q : Mat n 8) (W1a : Mat 256 256) (b1a : Mat 1 256) (W1b : Mat 256 512) (b1b : Mat 1 512)
    (Wb1 : Mat 256 64) (bb1 : Mat 1 64) (r : Fin n) (j : Fin 64) : EReal :=
  (∑ a : Fin 8, q (ix2 r a) * w1 x W1a b1a W1b b1b r (col a j)) + entry x Wb1 bb1 r j

/-- The second hypernetwork's weight at row r, column j. -/
def w2 {n : ℕ} (x : Mat n 256) (W2a : Mat 256 256) (b2a : Mat 1 256) (W2b : Mat 256 64) (b2b : Mat 1 64)
    (r : Fin n) (j : Fin 64) : EReal :=
  absE (entry (hidden x W2a b2a) W2b b2b r j)

/-- The output bias of row r. -/
def b2 {n : ℕ} (x : Mat n 256) (Wb2a : Mat 256 64) (bb2a : Mat 1 64) (wrow : Mat 1 64) (bb2 : Mat 1 1) (r : Fin n) : EReal :=
  (∑ j : Fin 64, hidden x Wb2a bb2a (ix2 r j) * wrow (ix2 (0 : Fin 1) j)) + bb2 (ix2 (0 : Fin 1) (0 : Fin 1))

/-- The mixed value of row r. -/
def out {n : ℕ} (x : Mat n 256) (q : Mat n 8) (W1a : Mat 256 256) (b1a : Mat 1 256) (W1b : Mat 256 512) (b1b : Mat 1 512)
    (W2a : Mat 256 256) (b2a : Mat 1 256) (W2b : Mat 256 64) (b2b : Mat 1 64) (Wb1 : Mat 256 64) (bb1 : Mat 1 64)
    (Wb2a : Mat 256 64) (bb2a : Mat 1 64) (wrow : Mat 1 64) (bb2 : Mat 1 1) (r : Fin n) : EReal :=
  (∑ j : Fin 64, elu (pre x q W1a b1a W1b b1b Wb1 bb1 r j) * w2 x W2a b2a W2b b2b r j) + b2 x Wb2a bb2a wrow bb2 r

section Rows

variable {n n' : ℕ} (x : Mat n 256) (x' : Mat n' 256) (q : Mat n 8) (q' : Mat n' 8) (r : Fin n) (r' : Fin n')

/-- Two dense layers, the first rectified, at row r read row r of the input only. -/
theorem two_layer_congr {K N : ℕ} (Wa : Mat 256 K) (ba : Mat 1 K) (Wb : Mat K N) (bb : Mat 1 N)
    (hx : ∀ k, x (ix2 r k) = x' (ix2 r' k)) (c : Fin N) :
    entry (hidden x Wa ba) Wb bb r c = entry (hidden x' Wa ba) Wb bb r' c :=
  entry_congr _ _ _ _ _ _ r r' c (fun k => hidden_congr x x' Wa ba r r' hx k) (fun _ => rfl) rfl

/-- Row r of the mixed value depends on row r of the states and of the agents' values only. -/
theorem out_congr (W1a : Mat 256 256) (b1a : Mat 1 256) (W1b : Mat 256 512) (b1b : Mat 1 512)
    (W2a : Mat 256 256) (b2a : Mat 1 256) (W2b : Mat 256 64) (b2b : Mat 1 64) (Wb1 : Mat 256 64) (bb1 : Mat 1 64)
    (Wb2a : Mat 256 64) (bb2a : Mat 1 64) (wrow : Mat 1 64) (bb2 : Mat 1 1)
    (hx : ∀ k, x (ix2 r k) = x' (ix2 r' k)) (hq : ∀ a, q (ix2 r a) = q' (ix2 r' a)) :
    out x q W1a b1a W1b b1b W2a b2a W2b b2b Wb1 bb1 Wb2a bb2a wrow bb2 r
      = out x' q' W1a b1a W1b b1b W2a b2a W2b b2b Wb1 bb1 Wb2a bb2a wrow bb2 r' := by
  unfold out
  have hpre : ∀ j, pre x q W1a b1a W1b b1b Wb1 bb1 r j = pre x' q' W1a b1a W1b b1b Wb1 bb1 r' j := fun j => by
    unfold pre w1
    rw [entry_congr x Wb1 bb1 x' Wb1 bb1 r r' j hx (fun _ => rfl) rfl]
    refine congrArg (· + entry x' Wb1 bb1 r' j) (Finset.sum_congr rfl fun a _ => ?_)
    rw [hq a, two_layer_congr x x' r r' W1a b1a W1b b1b hx (col a j)]
  have hw2 : ∀ j, w2 x W2a b2a W2b b2b r j = w2 x' W2a b2a W2b b2b r' j := fun j => by
    unfold w2
    rw [two_layer_congr x x' r r' W2a b2a W2b b2b hx j]
  have hb2 : b2 x Wb2a bb2a wrow bb2 r = b2 x' Wb2a bb2a wrow bb2 r' := by
    unfold b2
    refine congrArg (· + bb2 (ix2 (0 : Fin 1) (0 : Fin 1))) (Finset.sum_congr rfl fun j _ => ?_)
    rw [hidden_congr x x' Wb2a bb2a r r' hx j]
  rw [hb2]
  refine congrArg (· + b2 x' Wb2a bb2a wrow bb2 r') (Finset.sum_congr rfl fun j _ => ?_)
  rw [hpre j, hw2 j]

end Rows

end Cert.Mixer

end
-- ==== Proof.MixerKernel.lean ====
/-
  The kernel body's arithmetic on one block of 2048 rows, read at a row: it is the mixing network's value of
  that row of the block.

  The body narrows the states for the matrix unit (the identity on extended reals), runs the six dense layers as
  matrix products into zero accumulators with the bias rows spread over the block, takes the eight groups of
  64 columns of the first hypernetwork's weights as slices and the agents' values as one-column slices spread
  along the 64 columns, accumulates their products from a zero block, applies the exponential linear unit by a
  comparison and a select, and ends with two lane sums set into a column.
-/
import proofs.«180666_j25357486916099_2_alg».proof.Proof.Gen.KernelIdeal.Skeleton
import proofs.«180666_j25357486916099_2_alg».proof.Proof.LibHiddenLayers
import proofs.«180666_j25357486916099_2_alg».proof.Proof.Mixer
import Idealize.ShloMosaic.Lib.ValueLayout

noncomputable section

open scoped BigOperators

namespace Cert.KernelIdeal.Body

open Cert.KernelIdeal Cert.KernelIdeal.Gen Idealize.ShloMosaic Idealize.ShloMosaic.TcCoe Idealize.ShloMosaic.ValueIdx
open Idealize.ShloMosaic.GcnDense Cert.Perceptron Cert.Mixer Cert.Layers

variable (x0 : Vec Ideal S2048x256 .f32) (x1 : Vec Ideal S2048x8 .f32) (x2 : Vec Ideal S256x256 .f32) (x3 : Vec Ideal S1x256 .f32)
  (x4 : Vec Ideal S256x512 .f32) (x5 : Vec Ideal S1x512 .f32) (x6 : Vec Ideal S256x256 .f32) (x7 : Vec Ideal S1x256 .f32)
  (x8 : Vec Ideal S256x64 .f32) (x9 : Vec Ideal S1x64 .f32) (x10 : Vec Ideal S256x64 .f32) (x11 : Vec Ideal S1x64 .f32)
  (x12 : Vec Ideal S256x64 .f32) (x13 : Vec Ideal S1x64 .f32) (x14 : Vec Ideal S1x64 .f32) (x15 : Vec Ideal S1x1 .f32)

/-- The absolute value of a block at an entry. -/
theorem absf_at {s : Shape} {φ : FTy} (y : FVec Ideal s φ) (i : s.Idx) : absf y i = absE (y i) := rfl

/-- The block of states, narrowed for the matrix unit, is the block itself. -/
theorem pay3_eq : (k0_pay3 (F := Ideal) x0 : S2048x256.Idx → EReal) = x0 := by
  unfold k0_pay3
  exact shapeCast_self x0 _

/-- The block of agents' values through its identity cast is the block itself. -/
theorem pay2_eq : (k0_pay2 (F := Ideal) x1 : S2048x8.Idx → EReal) = x1 := by
  unfold k0_pay2
  exact shapeCast_self x1 _

/-- A hidden layer over the narrowed states is the hidden layer over the states. -/
theorem hidden_states {N : ℕ} (w : Mat 256 N) (b : Mat 1 N) :
    hidden (k0_pay3 (F := Ideal) x0) w b = hidden x0 w b := by
  rw [pay3_eq]

/-- The first hypernetwork's weights on the block. -/
theorem pay4_apply (r : Fin 2048) (c : Fin 512) :
    k0_pay4 (F := Ideal) x0 x2 x3 x4 x5 (ix2 r c) = w1 x0 x2 x3 x4 x5 r c := by
  unfold k0_pay4 w1
  simp only [absf_at]
  refine congrArg absE ?_
  refine (kernel_layer_apply dot_S2048x256_S256x512_S2048x512_1_0_0_1_n_n rfl rfl rfl rfl (fun _ _ => rfl) (fun _ _ => rfl) none _ _ x5 _ _ r c).trans ?_
  refine entry_congr _ _ _ _ _ _ r r c (fun k => ?_) (fun _ => rfl) rfl
  have h := kernel_hidden_eq dot_S2048x256_S256x256_S2048x256_1_0_0_1_n_n rfl rfl rfl rfl (fun _ _ => rfl) (fun _ _ => rfl) none (k0_pay3 (F := Ideal) x0)
    (truncf .bf16 x2 bitsLt_bf16_f32) x3 shapeCasts_S1x256_S1x256 broadcasts_S1x256_S2048x256
  exact (congrFun h (ix2 r k)).trans (congrFun (hidden_states x0 x2 x3) (ix2 r k))

/-- The state's bias layer on the block. -/
theorem pay5_apply (r : Fin 2048) (j : Fin 64) :
    k0_pay5 (F := Ideal) x0 x10 x11 (ix2 r j) = entry x0 x10 x11 r j := by
  unfold k0_pay5
  refine (kernel_layer_apply dot_S2048x256_S256x64_S2048x64_1_0_0_1_n_n rfl rfl rfl rfl (fun _ _ => rfl) (fun _ _ => rfl) none _ _ x11 _ _ r j).trans ?_
  exact entry_congr _ _ _ _ _ _ r r j (fun k => congrFun (pay3_eq x0) (ix2 r k)) (fun _ => rfl) rfl

/-- The second hypernetwork's rectified first layer on the block. -/
theorem pay10_eq : (k0_pay10 (F := Ideal) (k0_pay3 x0) x6 x7 : S2048x256.Idx → EReal) = hidden x0 x6 x7 := by
  unfold k0_pay10
  have h := kernel_hidden_eq dot_S2048x256_S256x256_S2048x256_1_0_0_1_n_n rfl rfl rfl rfl (fun _ _ => rfl) (fun _ _ => rfl) none (k0_pay3 (F := Ideal) x0)
    (truncf .bf16 x6 bitsLt_bf16_f32) x7 shapeCasts_S1x256_S1x256 broadcasts_S1x256_S2048x256
  exact h.trans (hidden_states x0 x6 x7)

section Groups

variable (v3 : FVec Ideal S2048x8 .f32) (v22 : FVec Ideal S2048x512 .f32) (r : Fin 2048) (j : Fin 64)

/-- An agent's column spread along the 64 columns reads the agent's value of the row. -/
theorem agent_apply (a : ℕ) (ha : a < 8) (h1 : S2048x8.Slices ![0, a] S2048x1) (hb : S2048x1.Broadcasts S2048x64) :
    broadcastTo S2048x64 (extractStridedSlice S2048x1 ![0, a] v3 h1) hb (ix2 r j) = v3 (ix2 r (⟨a, ha⟩ : Fin 8)) :=
  (broadcastTo_a1_ab_apply _ hb r j).trans (slice_cols_apply a v3 h1 r (0 : Fin 1) ⟨a, ha⟩ rfl)

/-- Group a of the weights reads column 64 a + j. -/
theorem group_apply (a : Fin 8) (off : ℕ) (hoff : off = a.val * 64) (h : S2048x512.Slices ![0, off] S2048x64) :
    extractStridedSlice S2048x64 ![0, off] v22 h (ix2 r j) = v22 (ix2 r (col a j)) :=
  slice_cols_apply off v22 h r j (col a j) (by rw [hoff]; rfl)

end Groups

/-- The hidden activation on the block: the unit of the eight weighted groups plus the bias layer. -/
theorem pay9_apply (v3 : FVec Ideal S2048x8 .f32) (v22 : FVec Ideal S2048x512 .f32) (v29 v35 : FVec Ideal S2048x64 .f32)
    (v36 : FVec Ideal S2048x1 .f32) (v37 : FVec Ideal S2048x64 .f32) (r : Fin 2048) (j : Fin 64) :
    k0_pay9 (F := Ideal) v3 v22 v29 v35 v36 v37 (ix2 r j)
      = elu (v35 (ix2 r j) + v36 (ix2 r (0 : Fin 1)) * v37 (ix2 r j)
          + v3 (ix2 r (2 : Fin 8)) * v22 (ix2 r (col 2 j)) + v3 (ix2 r (3 : Fin 8)) * v22 (ix2 r (col 3 j))
          + v3 (ix2 r (4 : Fin 8)) * v22 (ix2 r (col 4 j)) + v3 (ix2 r (5 : Fin 8)) * v22 (ix2 r (col 5 j))
          + v3 (ix2 r (6 : Fin 8)) * v22 (ix2 r (col 6 j)) + v3 (ix2 r (7 : Fin 8)) * v22 (ix2 r (col 7 j))
          + v29 (ix2 r j)) := by
  have hk : ∀ y : EReal, Scalar.select (Ideal.cmp .ogt y zeroWord) y (Ideal.exp y - Ideal.ofBits .f32 0x3F800000#32) = elu y :=
    fun y => by unfold elu; rw [ofBits_one_f32]
  unfold k0_pay9
  refine (hk _).trans (congrArg elu ?_)
  simp only [addf_apply, mulf_apply]
  rw [broadcastTo_a1_ab_apply v36 _ r j,
    agent_apply v3 r j 2 (by omega), agent_apply v3 r j 3 (by omega), agent_apply v3 r j 4 (by omega),
    agent_apply v3 r j 5 (by omega), agent_apply v3 r j 6 (by omega), agent_apply v3 r j 7 (by omega),
    group_apply v22 r j 2 128 rfl, group_apply v22 r j 3 192 rfl, group_apply v22 r j 4 256 rfl,
    group_apply v22 r j 5 320 rfl, group_apply v22 r j 6 384 rfl, group_apply v22 r j 7 448 rfl]
  rfl

/-- The accumulator's first step on the block: zero plus the first agent's group. -/
theorem pay6_apply (r : Fin 2048) (j : Fin 64) :
    k0_pay6 (F := Ideal) x0 x1 x2 x3 x4 x5 (ix2 r j)
      = zeroWord + k0_pay2 (F := Ideal) x1 (ix2 r (0 : Fin 8)) * k0_pay4 (F := Ideal) x0 x2 x3 x4 x5 (ix2 r (col 0 j)) := by
  unfold k0_pay6
  simp only [addf_apply, mulf_apply]
  rw [agent_apply (k0_pay2 (F := Ideal) x1) r j 0 (by omega), group_apply (k0_pay4 (F := Ideal) x0 x2 x3 x4 x5) r j 0 0 rfl]
  rfl

/-- The second agent's column. -/
theorem pay7_apply (r : Fin 2048) :
    k0_pay7 (F := Ideal) x1 (ix2 r (0 : Fin 1)) = k0_pay2 (F := Ideal) x1 (ix2 r (1 : Fin 8)) := by
  unfold k0_pay7
  exact slice_cols_apply 1 (k0_pay2 (F := Ideal) x1) _ r (0 : Fin 1) (1 : Fin 8) rfl

/-- The second group of the weights. -/
theorem pay8_apply (r : Fin 2048) (j : Fin 64) :
    k0_pay8 (F := Ideal) x0 x2 x3 x4 x5 (ix2 r j) = k0_pay4 (F := Ideal) x0 x2 x3 x4 x5 (ix2 r (col 1 j)) := by
  unfold k0_pay8
  exact group_apply (k0_pay4 (F := Ideal) x0 x2 x3 x4 x5) r j 1 64 rfl _

/-- The hidden activation of row r of the block. -/
theorem hidden_apply' (r : Fin 2048) (j : Fin 64) :
    k0_pay9 (F := Ideal) (k0_pay2 x1) (k0_pay4 x0 x2 x3 x4 x5) (k0_pay5 x0 x10 x11) (k0_pay6 x0 x1 x2 x3 x4 x5) (k0_pay7 x1)
        (k0_pay8 x0 x2 x3 x4 x5) (ix2 r j)
      = elu (pre x0 x1 x2 x3 x4 x5 x10 x11 r j) := by
  rw [pay9_apply]
  refine congrArg elu ?_
  rw [pay6_apply, pay7_apply, pay8_apply, pay5_apply]
  simp only [pay4_apply, congrFun (pay2_eq x1) _]
  unfold pre
  rw [Fin.sum_univ_eight]
  show zeroWord + _ + _ + _ + _ + _ + _ + _ + _ + _ = _
  rw [show zeroWord = (0 : EReal) from Ideal.ofBits_zero_f32, zero_add]

/-- The body's stored column at row r: the weighted sum of the hidden activation plus the output bias. -/
theorem pay1_apply (v4 : FVec Ideal S2048x256 .bf16) (v77 : FVec Ideal S2048x64 .f32) (v87 : FVec Ideal S2048x256 .bf16)
    (r : Fin 2048) :
    k0_pay1 (F := Ideal) v4 v77 v87 x8 x9 x12 x13 x14 x15 (ix2 r (0 : Fin 1))
      = (∑ j : Fin 64, v77 (ix2 r j) * absE (entry v87 x8 x9 r j))
        + ((∑ j : Fin 64, hidden v4 x12 x13 (ix2 r j) * x14 (ix2 (0 : Fin 1) j)) + x15 (ix2 (0 : Fin 1) (0 : Fin 1))) := by
  unfold k0_pay1
  simp only [addf_apply]
  rw [shapeCast_a_a1_apply _ _ r (0 : Fin 1), shapeCast_a_a1_apply _ _ r (0 : Fin 1)]
  refine congrArg₂ (· + ·)
    ((multiReduction_add_rows_apply _ _ _ _ r).trans (Finset.sum_congr rfl fun j _ => ?_))
    (congrArg₂ (· + ·) ((multiReduction_add_rows_apply _ _ _ _ r).trans (Finset.sum_congr rfl fun j _ => ?_)) ?_)
  · rw [mulf_apply, absf_at]
    refine congrArg (v77 (ix2 r j) * ·) (congrArg absE ?_)
    exact kernel_layer_apply dot_S2048x256_S256x64_S2048x64_1_0_0_1_n_n rfl rfl rfl rfl (fun _ _ => rfl) (fun _ _ => rfl) none _ _ x9 _ _ r j
  · rw [mulf_apply]
    refine congrArg₂ (· * ·) ?_ ?_
    · exact congrFun (kernel_hidden_eq dot_S2048x256_S256x64_S2048x64_1_0_0_1_n_n rfl rfl rfl rfl (fun _ _ => rfl) (fun _ _ => rfl) none v4 (truncf .bf16 x12 bitsLt_bf16_f32) x13
        shapeCasts_S1x64_S1x64 broadcasts_S1x64_S2048x64) (ix2 r j)
    · rw [broadcastTo_1b_ab_apply, shapeCast_self]
  · rw [broadcastTo_1b_ab_apply, shapeCast_self]

/-- The body's stored column at row r is the mixing network's value of row r of the block. -/
theorem payload_apply (r : Fin 2048) :
    k0_pay1 (F := Ideal) (k0_pay3 x0)
        (k0_pay9 (k0_pay2 x1) (k0_pay4 x0 x2 x3 x4 x5) (k0_pay5 x0 x10 x11) (k0_pay6 x0 x1 x2 x3 x4 x5) (k0_pay7 x1)
          (k0_pay8 x0 x2 x3 x4 x5))
        (k0_pay10 (k0_pay3 x0) x6 x7) x8 x9 x12 x13 x14 x15 (ix2 r (0 : Fin 1))
      = Mixer.out x0 x1 x2 x3 x4 x5 x6 x7 x8 x9 x10 x11 x12 x13 x14 x15 r := by
  rw [pay1_apply]
  unfold Mixer.out w2 b2
  rw [pay10_eq, hidden_states]
  simp only [hidden_apply']

end Cert.KernelIdeal.Body

end
-- ==== Proof.MixerWhole.lean ====
/-
  The mixing network over the whole batch, as one function of the sixteen argument arrays.

  The batch [128, 512] is flattened to 65536 rows, row p · 512 + t for the pair (p, t); the states and the
  agents' values are the row-major views [65536, 256] and [65536, 8] of their arrays, each bias vector is set
  under a leading unit axis, and the last layer's [64, 1] weights are viewed as a row [1, 64]. The result at
  (p, t, 0) is the mixed value of row p · 512 + t.
-/
import proofs.«180666_j25357486916099_2_alg».proof.Proof.Mixer

noncomputable section

namespace Cert.Mixer

open Idealize.ShloMosaic Idealize.ShloMosaic.ValueIdx

/-- The flattened row of the pair (p, t). -/
def rowOf (p : Fin 128) (t : Fin 512) : Fin 65536 := ⟨p.val * 512 + t.val, by have := p.isLt; have := t.isLt; omega⟩

/-- The mixed values of the whole batch. -/
def whole (a0 : (⟨4, ![128, 512, 8, 1]⟩ : Shape).Idx → EReal) (a1 : (⟨4, ![128, 512, 1, 256]⟩ : Shape).Idx → EReal) (a2 : (⟨2, ![256, 256]⟩ : Shape).Idx → EReal) (a3 : (⟨1, ![256]⟩ : Shape).Idx → EReal) (a4 : (⟨2, ![256, 512]⟩ : Shape).Idx → EReal) (a5 : (⟨1, ![512]⟩ : Shape).Idx → EReal) (a6 : (⟨2, ![256, 256]⟩ : Shape).Idx → EReal) (a7 : (⟨1, ![256]⟩ : Shape).Idx → EReal) (a8 : (⟨2, ![256, 64]⟩ : Shape).Idx → EReal) (a9 : (⟨1, ![64]⟩ : Shape).Idx → EReal) (a10 : (⟨2, ![256, 64]⟩ : Shape).Idx → EReal) (a11 : (⟨1, ![64]⟩ : Shape).Idx → EReal) (a12 : (⟨2, ![256, 64]⟩ : Shape).Idx → EReal) (a13 : (⟨1, ![64]⟩ : Shape).Idx → EReal) (a14 : (⟨2, ![64, 1]⟩ : Shape).Idx → EReal) (a15 : (⟨1, ![1]⟩ : Shape).Idx → EReal) :
    (⟨3, ![128, 512, 1]⟩ : Shape).Idx → EReal :=
  fun i => out (shapeCast ⟨2, ![65536, 256]⟩ a1 (by decide)) (shapeCast ⟨2, ![65536, 8]⟩ a0 (by decide))
    a2 (shapeCast ⟨2, ![1, 256]⟩ a3 (by decide)) a4 (shapeCast ⟨2, ![1, 512]⟩ a5 (by decide))
    a6 (shapeCast ⟨2, ![1, 256]⟩ a7 (by decide)) a8 (shapeCast ⟨2, ![1, 64]⟩ a9 (by decide))
    a10 (shapeCast ⟨2, ![1, 64]⟩ a11 (by decide)) a12 (shapeCast ⟨2, ![1, 64]⟩ a13 (by decide))
    (shapeCast ⟨2, ![1, 64]⟩ a14 (by decide)) (shapeCast ⟨2, ![1, 1]⟩ a15 (by decide)) (rowOf (i 0) (i 1))

end Cert.Mixer

end
-- ==== Proof.KernelValue.lean ====
/-
  The kernel's run, read: the result array ends at the mixing network over the whole batch.

  The region has 32 points; point t stages rows 2048 t … 2048 t + 2047 of the states and of the agents' values,
  the whole of every weight and bias array, and writes back rows 2048 t … of the [65536, 1] output. What a
  point writes back is the mixed value of its rows (the body's arithmetic read at a row, and the fact that a
  row's value depends on that row only); the 32 blocks cover the output; the line after the region reshapes
  it to [128, 512, 1], so entry (p, s, 0) is row 512 p + s. The lines before the region set each bias vector
  under a unit axis and flatten the two batch arrays.
-/
import proofs.«180666_j25357486916099_2_alg».proof.Proof.Gen.KernelIdeal.Frame
import proofs.«180666_j25357486916099_2_alg».proof.Proof.MixerKernel
import proofs.«180666_j25357486916099_2_alg».proof.Proof.MixerWhole
import Idealize.ShloMosaic.Lib.Pipeline.Value

noncomputable section

namespace Cert.KernelIdeal.Whole

open Cert.KernelIdeal Cert.KernelIdeal.Gen Idealize.ShloMosaic Idealize.ShloMosaic.TcCoe Idealize.SL.Sem
open Idealize.ShloMosaic.ValueIdx Cert.Mixer
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the three row windows sit at block t, every other window at block 0. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_16.index t (0 : Fin 2) = t.val ∧ win0_16.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0)
    ∧ (win0_14.index t (0 : Fin 2) = 0 ∧ win0_14.index t (1 : Fin 2) = 0)
    ∧ (win0_15.index t (0 : Fin 2) = 0 ∧ win0_15.index t (1 : Fin 2) = 0) :=
  (by decide +kernel : ∀ t : Fin grid0.N, _)

/-- The row of the whole batch under row y of point t's block. -/
def rowAt (t : Fin cfg0.N) (y : Fin 2048) : Fin 65536 :=
  ⟨t.val * 2048 + y.val, by have := t.isLt; have hN : cfg0.N = 32 := N_0; have := y.isLt; omega⟩

/-- Point t's block of the states is rows 2048 t … of the flattened states. -/
theorem states_apply (c : Dev nD) (t : Fin cfg0.N) (y : Fin 2048) (k : Fin 256) :
    (iblk m c 0 t : Vec Ideal S2048x256 .f32) (ix2 y k) = (V m c main_v1 : S65536x256.Idx → EReal) (ix2 (rowAt t y) k) := by
  have hi := (idx_facts t).1
  unfold iblk
  rw [View.read_apply]
  show V m c main_v1 _ = V m c main_v1 _
  refine congrArg _ (funext fun a => Fin.ext ?_)
  match a with
  | ⟨0, _⟩ => show win0_0.index t (0 : Fin 2) * 2048 + 1 * y.val = t.val * 2048 + y.val; rw [hi.1]; omega
  | ⟨1, _⟩ => show win0_0.index t (1 : Fin 2) * 256 + 1 * k.val = k.val; rw [hi.2]; omega

/-- Point t's block of the agents' values is rows 2048 t … of the flattened values. -/
theorem agents_apply (c : Dev nD) (t : Fin cfg0.N) (y : Fin 2048) (a : Fin 8) :
    (iblk m c 1 t : Vec Ideal S2048x8 .f32) (ix2 y a) = (V m c main_v0 : S65536x8.Idx → EReal) (ix2 (rowAt t y) a) := by
  have hi := (idx_facts t).2.1
  unfold iblk
  rw [View.read_apply]
  show V m c main_v0 _ = V m c main_v0 _
  refine congrArg _ (funext fun b => Fin.ext ?_)
  match b with
  | ⟨0, _⟩ => show win0_1.index t (0 : Fin 2) * 2048 + 1 * y.val = t.val * 2048 + y.val; rw [hi.1]; omega
  | ⟨1, _⟩ => show win0_1.index t (1 : Fin 2) * 8 + 1 * a.val = a.val; rw [hi.2]; omega

/-- Window 2's block at every point is its whole array. -/
theorem whole2 (c : Dev nD) (t : Fin cfg0.N) : (iblk m c 2 t : Vec Ideal S256x256 .f32) = V m c main_arg2 := by
  have hi := (idx_facts t).2.2.2.1
  funext j
  unfold iblk
  rw [View.read_apply]
  show V m c main_arg2 _ = V m c main_arg2 j
  refine congrArg _ (funext fun a => Fin.ext ?_)
  match a with
  | ⟨0, _⟩ => show win0_2.index t (0 : Fin 2) * 256 + 1 * (j 0).val = (j 0).val; rw [hi.1]; omega
  | ⟨1, _⟩ => show win0_2.index t (1 : Fin 2) * 256 + 1 * (j 1).val = (j 1).val; rw [hi.2]; omega

/-- Window 3's block at every point is its whole array. -/
theorem whole3 (c : Dev nD) (t : Fin cfg0.N) : (iblk m c 3 t : Vec Ideal S1x256 .f32) = V m c main_v2 := by
  have hi := (idx_facts t).2.2.2.2.1
  funext j
  unfold iblk
  rw [View.read_apply]
  show V m c main_v2 _ = V m c main_v2 j
  refine congrArg _ (funext fun a => Fin.ext ?_)
  match a with
  | ⟨0, _⟩ => show win0_3.index t (0 : Fin 2) * 1 + 1 * (j 0).val = (j 0).val; rw [hi.1]; omega
  | ⟨1, _⟩ => show win0_3.index t (1 : Fin 2) * 256 + 1 * (j 1).val = (j 1).val; rw [hi.2]; omega

/-- Window 4's block at every point is its whole array. -/
theorem whole4 (c : Dev nD) (t : Fin cfg0.N) : (iblk m c 4 t : Vec Ideal S256x512 .f32) = V m c main_arg4 := by
  have hi := (idx_facts t).2.2.2.2.2.1
  funext j
  unfold iblk
  rw [View.read_apply]
  show V m c main_arg4 _ = V m c main_arg4 j
  refine congrArg _ (funext fun a => Fin.ext ?_)
  match a with
  | ⟨0, _⟩ => show win0_4.index t (0 : Fin 2) * 256 + 1 * (j 0).val = (j 0).val; rw [hi.1]; omega
  | ⟨1, _⟩ => show win0_4.index t (1 : Fin 2) * 512 + 1 * (j 1).val = (j 1).val; rw [hi.2]; omega

/-- Window 5's block at every point is its whole array. -/
theorem whole5 (c : Dev nD) (t : Fin cfg0.N) : (iblk m c 5 t : Vec Ideal S1x512 .f32) = V m c main_v3 := by
  have hi := (idx_facts t).2.2.2.2.2.2.1
  funext j
  unfold iblk
  rw [View.read_apply]
  show V m c main_v3 _ = V m c main_v3 j
  refine congrArg _ (funext fun a => Fin.ext ?_)
  match a with
  | ⟨0, _⟩ => show win0_5.index t (0 : Fin 2) * 1 + 1 * (j 0).val = (j 0).val; rw [hi.1]; omega
  | ⟨1, _⟩ => show win0_5.index t (1 : Fin 2) * 512 + 1 * (j 1).val = (j 1).val; rw [hi.2]; omega

/-- Window 6's block at every point is its whole array. -/
theorem whole6 (c : Dev nD) (t : Fin cfg0.N) : (iblk m c 6 t : Vec Ideal S256x256 .f32) = V m c main_arg6 := by
  have hi := (idx_facts t).2.2.2.2.2.2.2.1
  funext j
  unfold iblk
  rw [View.read_apply]
  show V m c main_arg6 _ = V m c main_arg6 j
  refine congrArg _ (funext fun a => Fin.ext ?_)
  match a with
  | ⟨0, _⟩ => show win0_6.index t (0 : Fin 2) * 256 + 1 * (j 0).val = (j 0).val; rw [hi.1]; omega
  | ⟨1, _⟩ => show win0_6.index t (1 : Fin 2) * 256 + 1 * (j 1).val = (j 1).val; rw [hi.2]; omega

/-- Window 7's block at every point is its whole array. -/
theorem whole7 (c : Dev nD) (t : Fin cfg0.N) : (iblk m c 7 t : Vec Ideal S1x256 .f32) = V m c main_v4 := by
  have hi := (idx_facts t).2.2.2.2.2.2.2.2.1
  funext j
  unfold iblk
  rw [View.read_apply]
  show V m c main_v4 _ = V m c main_v4 j
  refine congrArg _ (funext fun a => Fin.ext ?_)
  match a with
  | ⟨0, _⟩ => show win0_7.index t (0 : Fin 2) * 1 + 1 * (j 0).val = (j 0).val; rw [hi.1]; omega
  | ⟨1, _⟩ => show win0_7.index t (1 : Fin 2) * 256 + 1 * (j 1).val = (j 1).val; rw [hi.2]; omega

/-- Window 8's block at every point is its whole array. -/
theorem whole8 (c : Dev nD) (t : Fin cfg0.N) : (iblk m c 8 t : Vec Ideal S256x64 .f32) = V m c main_arg8 := by
  have hi := (idx_facts t).2.2.2.2.2.2.2.2.2.1
  funext j
  unfold iblk
  rw [View.read_apply]
  show V m c main_arg8 _ = V m c main_arg8 j
  refine congrArg _ (funext fun a => Fin.ext ?_)
  match a with
  | ⟨0, _⟩ => show win0_8.index t (0 : Fin 2) * 256 + 1 * (j 0).val = (j 0).val; rw [hi.1]; omega
  | ⟨1, _⟩ => show win0_8.index t (1 : Fin 2) * 64 + 1 * (j 1).val = (j 1).val; rw [hi.2]; omega

/-- Window 9's block at every point is its whole array. -/
theorem whole9 (c : Dev nD) (t : Fin cfg0.N) : (iblk m c 9 t : Vec Ideal S1x64 .f32) = V m c main_v5 := by
  have hi := (idx_facts t).2.2.2.2.2.2.2.2.2.2.1
  funext j
  unfold iblk
  rw [View.read_apply]
  show V m c main_v5 _ = V m c main_v5 j
  refine congrArg _ (funext fun a => Fin.ext ?_)
  match a with
  | ⟨0, _⟩ => show win0_9.index t (0 : Fin 2) * 1 + 1 * (j 0).val = (j 0).val; rw [hi.1]; omega
  | ⟨1, _⟩ => show win0_9.index t (1 : Fin 2) * 64 + 1 * (j 1).val = (j 1).val; rw [hi.2]; omega

/-- Window 10's block at every point is its whole array. -/
theorem whole10 (c : Dev nD) (t : Fin cfg0.N) : (iblk m c 10 t : Vec Ideal S256x64 .f32) = V m c main_arg10 := by
  have hi := (idx_facts t).2.2.2.2.2.2.2.2.2.2.2.1
  funext j
  unfold iblk
  rw [View.read_apply]
  show V m c main_arg10 _ = V m c main_arg10 j
  refine congrArg _ (funext fun a => Fin.ext ?_)
  match a with
  | ⟨0, _⟩ => show win0_10.index t (0 : Fin 2) * 256 + 1 * (j 0).val = (j 0).val; rw [hi.1]; omega
  | ⟨1, _⟩ => show win0_10.index t (1 : Fin 2) * 64 + 1 * (j 1).val = (j 1).val; rw [hi.2]; omega

/-- Window 11's block at every point is its whole array. -/
theorem whole11 (c : Dev nD) (t : Fin cfg0.N) : (iblk m c 11 t : Vec Ideal S1x64 .f32) = V m c main_v6 := by
  have hi := (idx_facts t).2.2.2.2.2.2.2.2.2.2.2.2.1
  funext j
  unfold iblk
  rw [View.read_apply]
  show V m c main_v6 _ = V m c main_v6 j
  refine congrArg _ (funext fun a => Fin.ext ?_)
  match a with
  | ⟨0, _⟩ => show win0_11.index t (0 : Fin 2) * 1 + 1 * (j 0).val = (j 0).val; rw [hi.1]; omega
  | ⟨1, _⟩ => show win0_11.index t (1 : Fin 2) * 64 + 1 * (j 1).val = (j 1).val; rw [hi.2]; omega

/-- Window 12's block at every point is its whole array. -/
theorem whole12 (c : Dev nD) (t : Fin cfg0.N) : (iblk m c 12 t : Vec Ideal S256x64 .f32) = V m c main_arg12 := by
  have hi := (idx_facts t).2.2.2.2.2.2.2.2.2.2.2.2.2.1
  funext j
  unfold iblk
  rw [View.read_apply]
  show V m c main_arg12 _ = V m c main_arg12 j
  refine congrArg _ (funext fun a => Fin.ext ?_)
  match a with
  | ⟨0, _⟩ => show win0_12.index t (0 : Fin 2) * 256 + 1 * (j 0).val = (j 0).val; rw [hi.1]; omega
  | ⟨1, _⟩ => show win0_12.index t (1 : Fin 2) * 64 + 1 * (j 1).val = (j 1).val; rw [hi.2]; omega

/-- Window 13's block at every point is its whole array. -/
theorem whole13 (c : Dev nD) (t : Fin cfg0.N) : (iblk m c 13 t : Vec Ideal S1x64 .f32) = V m c main_v7 := by
  have hi := (idx_facts t).2.2.2.2.2.2.2.2.2.2.2.2.2.2.1
  funext j
  unfold iblk
  rw [View.read_apply]
  show V m c main_v7 _ = V m c main_v7 j
  refine congrArg _ (funext fun a => Fin.ext ?_)
  match a with
  | ⟨0, _⟩ => show win0_13.index t (0 : Fin 2) * 1 + 1 * (j 0).val = (j 0).val; rw [hi.1]; omega
  | ⟨1, _⟩ => show win0_13.index t (1 : Fin 2) * 64 + 1 * (j 1).val = (j 1).val; rw [hi.2]; omega

/-- Window 14's block at every point is its whole array. -/
theorem whole14 (c : Dev nD) (t : Fin cfg0.N) : (iblk m c 14 t : Vec Ideal S1x64 .f32) = V m c main_v8 := by
  have hi := (idx_facts t).2.2.2.2.2.2.2.2.2.2.2.2.2.2.2.1
  funext j
  unfold iblk
  rw [View.read_apply]
  show V m c main_v8 _ = V m c main_v8 j
  refine congrArg _ (funext fun a => Fin.ext ?_)
  match a with
  | ⟨0, _⟩ => show win0_14.index t (0 : Fin 2) * 1 + 1 * (j 0).val = (j 0).val; rw [hi.1]; omega
  | ⟨1, _⟩ => show win0_14.index t (1 : Fin 2) * 64 + 1 * (j 1).val = (j 1).val; rw [hi.2]; omega

/-- Window 15's block at every point is its whole array. -/
theorem whole15 (c : Dev nD) (t : Fin cfg0.N) : (iblk m c 15 t : Vec Ideal S1x1 .f32) = V m c main_v9 := by
  have hi := (idx_facts t).2.2.2.2.2.2.2.2.2.2.2.2.2.2.2.2
  funext j
  unfold iblk
  rw [View.read_apply]
  show V m c main_v9 _ = V m c main_v9 j
  refine congrArg _ (funext fun a => Fin.ext ?_)
  match a with
  | ⟨0, _⟩ => show win0_15.index t (0 : Fin 2) * 1 + 1 * (j 0).val = (j 0).val; rw [hi.1]; omega
  | ⟨1, _⟩ => show win0_15.index t (1 : Fin 2) * 1 + 1 * (j 1).val = (j 1).val; rw [hi.2]; omega

/-- What the body stores, as a function of its sixteen loaded blocks: the mixed value of each row of the block. -/
theorem store_eq (x0 : Vec Ideal S2048x256 .f32) (x1 : Vec Ideal S2048x8 .f32) (x2 : Vec Ideal S256x256 .f32) (x3 : Vec Ideal S1x256 .f32)
    (x4 : Vec Ideal S256x512 .f32) (x5 : Vec Ideal S1x512 .f32) (x6 : Vec Ideal S256x256 .f32) (x7 : Vec Ideal S1x256 .f32)
    (x8 : Vec Ideal S256x64 .f32) (x9 : Vec Ideal S1x64 .f32) (x10 : Vec Ideal S256x64 .f32) (x11 : Vec Ideal S1x64 .f32)
    (x12 : Vec Ideal S256x64 .f32) (x13 : Vec Ideal S1x64 .f32) (x14 : Vec Ideal S1x64 .f32) (x15 : Vec Ideal S1x1 .f32) :
    (out0_16 (F := Ideal) x0 x1 x2 x3 x4 x5 x6 x7 x8 x9 x10 x11 x12 x13 x14 x15 : S2048x1.Idx → EReal) = fun j => Mixer.out x0 x1 x2 x3 x4 x5 x6 x7 x8 x9 x10 x11 x12 x13 x14 x15 (j 0) := by
  funext j
  obtain ⟨y, u, rfl⟩ : ∃ (y : Fin 2048) (u : Fin 1), j = ix2 y u := ⟨j 0, j 1, eq_ix2 j⟩
  have hu : u = 0 := Subsingleton.elim _ _
  subst hu
  unfold out0_16
  rw [View.canon_unit_zero hz]
  simp only [View.ld_unit_zero (S := S2048x256) hz, View.ld_unit_zero (S := S2048x8) hz, View.ld_unit_zero (S := S256x256) hz, View.ld_unit_zero (S := S1x256) hz, View.ld_unit_zero (S := S256x512) hz, View.ld_unit_zero (S := S1x512) hz, View.ld_unit_zero (S := S256x64) hz, View.ld_unit_zero (S := S1x64) hz, View.ld_unit_zero (S := S1x1) hz]
  exact Body.payload_apply x0 x1 x2 x3 x4 x5 x6 x7 x8 x9 x10 x11 x12 x13 x14 x15 y

/-- The mixed values of the rows, over the arrays as the region finds them. -/
def rows (c : Dev nD) : S65536x1.Idx → EReal := fun i =>
  Mixer.out (V m c main_v1 : S65536x256.Idx → EReal) (V m c main_v0 : S65536x8.Idx → EReal) (V m c main_arg2 : S256x256.Idx → EReal) (V m c main_v2 : S1x256.Idx → EReal) (V m c main_arg4 : S256x512.Idx → EReal) (V m c main_v3 : S1x512.Idx → EReal) (V m c main_arg6 : S256x256.Idx → EReal) (V m c main_v4 : S1x256.Idx → EReal) (V m c main_arg8 : S256x64.Idx → EReal) (V m c main_v5 : S1x64.Idx → EReal) (V m c main_arg10 : S256x64.Idx → EReal) (V m c main_v6 : S1x64.Idx → EReal) (V m c main_arg12 : S256x64.Idx → EReal) (V m c main_v7 : S1x64.Idx → EReal) (V m c main_v8 : S1x64.Idx → EReal) (V m c main_v9 : S1x1.Idx → EReal) (i 0)

/-- An index of the output is in point t's block iff each coordinate is in the block's range. -/
theorem mem_blk (t : Fin cfg0.N) (i : S65536x1.Idx) :
    i ∈ ((cfg0.win 16).blk t).view.set ↔ ∀ a : Fin 2, win0_16.index t a * S2048x1.size a ≤ (i a).val ∧ (i a).val < win0_16.index t a * S2048x1.size a + S2048x1.size a := by
  show i ∈ ((View.whole main_v10).slice (win0_16.rect t)).set ↔ _
  rw [View.set_slice_whole, Rect.mem_set_unit]
  exact Iff.rfl

/-- What point t writes back is block t of the rows' mixed values. -/
theorem flushed_eq (c : Dev nD) (t : Fin cfg0.N) (hf : (cfg0.win 16).flush t = true) :
    (dats m 0 c).flushed 16 t = ((cfg0.win 16).blk t).view.read (Elt Ideal) (rows m c) := by
  show (cfg0.win 16).cut (grid0.coords t) ((dats m 0 c).after 16 t) = _
  rw [after0_16]
  funext j
  rw [View.read_apply]
  show out0_16 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) j = rows m c (((cfg0.win 16).blk t).view.emb j)
  refine (congrFun (store_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) j).trans ?_
  have he : (((cfg0.win 16).blk t).view.emb j) 0 = rowAt t (j 0) := Fin.ext (by
    show win0_16.index t (0 : Fin 2) * 2048 + 1 * (j 0).val = t.val * 2048 + (j 0).val
    rw [(idx_facts t).2.2.1.1]; omega)
  unfold rows
  rw [he, whole2 m c t, whole3 m c t, whole4 m c t, whole5 m c t, whole6 m c t, whole7 m c t, whole8 m c t, whole9 m c t, whole10 m c t, whole11 m c t, whole12 m c t, whole13 m c t, whole14 m c t, whole15 m c t]
  exact out_congr _ _ _ _ (j 0) (rowAt t (j 0)) _ _ _ _ _ _ _ _ _ _ _ _ _ _
    (fun k => states_apply m c t (j 0) k) (fun a => agents_apply m c t (j 0) a)

/-- The 32 blocks cover the output. -/
theorem cover (i : S65536x1.Idx) : ∃ t : Fin cfg0.N, (cfg0.win 16).flush t = true ∧ i ∈ ((cfg0.win 16).blk t).view.set := by
  have h0 : (i 0).val < 65536 := (i 0).isLt
  have h1 : (i 1).val < 1 := (i 1).isLt
  have hN : cfg0.N = 32 := N_0
  refine ⟨⟨(i 0).val / 2048, by rw [hN]; omega⟩, flush0_16 _, ?_⟩
  rw [mem_blk]
  have hi := (idx_facts ⟨(i 0).val / 2048, by rw [hN]; omega⟩).2.2.1
  intro a
  match a with
  | ⟨0, _⟩ =>
    show win0_16.index _ (0 : Fin 2) * 2048 ≤ (i 0).val ∧ (i 0).val < win0_16.index _ (0 : Fin 2) * 2048 + 2048
    rw [hi.1]
    show (i 0).val / 2048 * 2048 ≤ (i 0).val ∧ (i 0).val < (i 0).val / 2048 * 2048 + 2048
    omega
  | ⟨1, _⟩ =>
    show win0_16.index _ (1 : Fin 2) * 1 ≤ (i 1).val ∧ (i 1).val < win0_16.index _ (1 : Fin 2) * 1 + 1
    rw [hi.2]
    omega

/-- The output array after the region. -/
theorem final (c : Dev nD) : (dats m 0 c).arrAt 16 cfg0.N = rows m c :=
  (dats m 0 c).arrAt_eq_of_cover 16 (rows m c) (flushed_eq m c) cover

/-- The region finds `main_v0` at the reshape of `main_arg0`. -/
theorem entry_main_v0 (c : Dev nD) : (V m c main_v0 : S65536x8.Idx → EReal) = shapeCast S65536x8 (m ((c : Thread nD τ).loc main_arg0)) shapeCasts_S128x512x8x1_S65536x8 := by
  show StableHlo.after hostOps0 (fun b => m (c, b)) (Proc.devRef .tc main_v0) = _
  after_results
  rfl

/-- The region finds `main_v1` at the reshape of `main_arg1`. -/
theorem entry_main_v1 (c : Dev nD) : (V m c main_v1 : S65536x256.Idx → EReal) = shapeCast S65536x256 (m ((c : Thread nD τ).loc main_arg1)) shapeCasts_S128x512x1x256_S65536x256 := by
  show StableHlo.after hostOps0 (fun b => m (c, b)) (Proc.devRef .tc main_v1) = _
  after_results
  rfl

/-- The region finds `main_v2` at the reshape of `main_arg3`. -/
theorem entry_main_v2 (c : Dev nD) : (V m c main_v2 : S1x256.Idx → EReal) = shapeCast S1x256 (m ((c : Thread nD τ).loc main_arg3)) shapeCasts_S256_S1x256 := by
  show StableHlo.after hostOps0 (fun b => m (c, b)) (Proc.devRef .tc main_v2) = _
  after_results
  rfl

/-- The region finds `main_v3` at the reshape of `main_arg5`. -/
theorem entry_main_v3 (c : Dev nD) : (V m c main_v3 : S1x512.Idx → EReal) = shapeCast S1x512 (m ((c : Thread nD τ).loc main_arg5)) shapeCasts_S512_S1x512 := by
  show StableHlo.after hostOps0 (fun b => m (c, b)) (Proc.devRef .tc main_v3) = _
  after_results
  rfl

/-- The region finds `main_v4` at the reshape of `main_arg7`. -/
theorem entry_main_v4 (c : Dev nD) : (V m c main_v4 : S1x256.Idx → EReal) = shapeCast S1x256 (m ((c : Thread nD τ).loc main_arg7)) shapeCasts_S256_S1x256 := by
  show StableHlo.after hostOps0 (fun b => m (c, b)) (Proc.devRef .tc main_v4) = _
  after_results
  rfl

/-- The region finds `main_v5` at the reshape of `main_arg9`. -/
theorem entry_main_v5 (c : Dev nD) : (V m c main_v5 : S1x64.Idx → EReal) = shapeCast S1x64 (m ((c : Thread nD τ).loc main_arg9)) shapeCasts_S64_S1x64 := by
  show StableHlo.after hostOps0 (fun b => m (c, b)) (Proc.devRef .tc main_v5) = _
  after_results
  rfl

/-- The region finds `main_v6` at the reshape of `main_arg11`. -/
theorem entry_main_v6 (c : Dev nD) : (V m c main_v6 : S1x64.Idx → EReal) = shapeCast S1x64 (m ((c : Thread nD τ).loc main_arg11)) shapeCasts_S64_S1x64 := by
  show StableHlo.after hostOps0 (fun b => m (c, b)) (Proc.devRef .tc main_v6) = _
  after_results
  rfl

/-- The region finds `main_v7` at the reshape of `main_arg13`. -/
theorem entry_main_v7 (c : Dev nD) : (V m c main_v7 : S1x64.Idx → EReal) = shapeCast S1x64 (m ((c : Thread nD τ).loc main_arg13)) shapeCasts_S64_S1x64 := by
  show StableHlo.after hostOps0 (fun b => m (c, b)) (Proc.devRef .tc main_v7) = _
  after_results
  rfl

/-- The region finds `main_v8` at the reshape of `main_arg14`. -/
theorem entry_main_v8 (c : Dev nD) : (V m c main_v8 : S1x64.Idx → EReal) = shapeCast S1x64 (m ((c : Thread nD τ).loc main_arg14)) shapeCasts_S64x1_S1x64 := by
  show StableHlo.after hostOps0 (fun b => m (c, b)) (Proc.devRef .tc main_v8) = _
  after_results
  rfl

/-- The region finds `main_v9` at the reshape of `main_arg15`. -/
theorem entry_main_v9 (c : Dev nD) : (V m c main_v9 : S1x1.Idx → EReal) = shapeCast S1x1 (m ((c : Thread nD τ).loc main_arg15)) shapeCasts_S1_S1x1 := by
  show StableHlo.after hostOps0 (fun b => m (c, b)) (Proc.devRef .tc main_v9) = _
  after_results
  rfl

/-- The result buffer after the line that follows the region: the output reshaped, which is the mixing network
    over the whole batch of the launch arguments. -/
theorem tail_eq (c : Dev nD) :
    Pipeline.afterTail₀ cfgs (dats m) 0 (V0 m) [hostOps1] c main_v11
      = whole (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  unfold Pipeline.afterTail₀
  show StableHlo.after hostOps1 _ (Proc.devRef .tc main_v11) = _
  after_results
  rw [(Pipeline.withArrays_arr spec0 launch0.win.arr_inj c _ _ 16).trans (final m c)]
  funext i
  obtain ⟨p, s, u, rfl⟩ : ∃ (p : Fin 128) (s : Fin 512) (u : Fin 1), i = ix3 p s u := ⟨i 0, i 1, i 2, eq_ix3 i⟩
  have hu : u = 0 := Subsingleton.elim _ _
  subst hu
  refine (shapeCast_apply (rows m c) shapeCasts_S65536x1_S128x512x1 (ix3 p s (0 : Fin 1)) (ix2 (rowOf p s) (0 : Fin 1)) (by
    rw [Shape.rowMajor_val_two, Shape.rowMajor_val_three]
    show (p.val * 512 + s.val) * 1 + 0 = (p.val * 512 + s.val) * 1 + 0
    rfl)).trans ?_
  unfold rows whole
  rw [entry_main_v0 m c, entry_main_v1 m c, entry_main_v2 m c, entry_main_v3 m c, entry_main_v4 m c, entry_main_v5 m c, entry_main_v6 m c, entry_main_v7 m c, entry_main_v8 m c, entry_main_v9 m c, V_main_arg2 m c, V_main_arg4 m c, V_main_arg6 m c, V_main_arg8 m c, V_main_arg10 m c, V_main_arg12 m c]

/-- Every weakly fair execution of the idealized kernel's @main terminates with the result at the mixing network
    over the whole batch of the launch arguments, and every argument unchanged. -/
theorem run : θ_run defs (onTc (τ := τ) (main (F := Ideal))) ⟨m, fun _ => 0, ρ⟩ fun r => ∀ c : Dev nD,
      r.2.mem ((c.tc : Thread nD τ).loc main_v11) = whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨((h c).2 main_v11 (Pipeline.mem_restRefs_of main_v11 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      ((h c).1 4).trans (((dats m 0 c).arrAt_in 4 rfl _).trans ((A_eq m c 4).trans (V_main_arg4 m c))),
      (((h c).2 main_arg5 (Pipeline.mem_restRefs_of main_arg5 (by decide) (by decide))).trans (W_main_arg5 m (dats m) c)),
      ((h c).1 6).trans (((dats m 0 c).arrAt_in 6 rfl _).trans ((A_eq m c 6).trans (V_main_arg6 m c))),
      (((h c).2 main_arg7 (Pipeline.mem_restRefs_of main_arg7 (by decide) (by decide))).trans (W_main_arg7 m (dats m) c)),
      ((h c).1 8).trans (((dats m 0 c).arrAt_in 8 rfl _).trans ((A_eq m c 8).trans (V_main_arg8 m c))),
      (((h c).2 main_arg9 (Pipeline.mem_restRefs_of main_arg9 (by decide) (by decide))).trans (W_main_arg9 m (dats m) c)),
      ((h c).1 10).trans (((dats m 0 c).arrAt_in 10 rfl _).trans ((A_eq m c 10).trans (V_main_arg10 m c))),
      (((h c).2 main_arg11 (Pipeline.mem_restRefs_of main_arg11 (by decide) (by decide))).trans (W_main_arg11 m (dats m) c)),
      ((h c).1 12).trans (((dats m 0 c).arrAt_in 12 rfl _).trans ((A_eq m c 12).trans (V_main_arg12 m c))),
      (((h c).2 main_arg13 (Pipeline.mem_restRefs_of main_arg13 (by decide) (by decide))).trans (W_main_arg13 m (dats m) c)),
      (((h c).2 main_arg14 (Pipeline.mem_restRefs_of main_arg14 (by decide) (by decide))).trans (W_main_arg14 m (dats m) c)),
      (((h c).2 main_arg15 (Pipeline.mem_restRefs_of main_arg15 (by decide) (by decide))).trans (W_main_arg15 m (dats m) c))⟩)
    (run_main m ρ)

end Cert.KernelIdeal.Whole

end
-- ==== Proof.RefTerm.lean ====
/-
  The reference's result as one term of its sixteen arguments, stage by stage.

  Each definition below is one stage of the host program, written with the host operations themselves:
  the flattened states and agents' values, a dense layer (a product plus a bias vector set under a unit
  axis and spread down the rows), the rectifier, the two hypernetworks' absolute values, the weighted sum
  over the agents as a batched product, the exponential linear unit as the host spells it (two selects
  around exp(·) − 1, times one), the final batched product, its bias, and the last reshape.
-/
import proofs.«180666_j25357486916099_2_alg».proof.ReferenceIdeal
import proofs.«180666_j25357486916099_2_alg».proof.Proof.Gen.ReferenceIdeal

noncomputable section

namespace Cert.ReferenceIdeal.Term

open Cert.ReferenceIdeal Cert.ReferenceIdeal.Gen Idealize.ShloMosaic Idealize.ShloMosaic.TcCoe

variable {F : FTy → Type} [FloatOps F]

/-- The zero constant spread over a shape, as the rectifier and the unit's comparisons use it. -/
abbrev zeros256 : FVec F S65536x256 .f32 := broadcastInDim S65536x256 ![] bcast_S_S65536x256 (constant S_ .f32 0x00000000#32)
abbrev zeros64 : FVec F S65536x64 .f32 := broadcastInDim S65536x64 ![] bcast_S_S65536x64 (constant S_ .f32 0x00000000#32)
abbrev zeros3 : FVec F S65536x1x64 .f32 := broadcastInDim S65536x1x64 ![] bcast_S_S65536x1x64 (constant S_ .f32 0x00000000#32)

/-- The states as a matrix [65536, 256]. -/
def states (a1 : FVec F S128x512x1x256 .f32) : FVec F S65536x256 .f32 :=
  shapeCast S65536x256 a1 shapeCasts_S128x512x1x256_S65536x256

/-- The agents' values as [65536, 1, 8]. -/
def agents (a0 : FVec F S128x512x8x1 .f32) : FVec F S65536x1x8 .f32 :=
  shapeCast S65536x1x8 a0 shapeCasts_S128x512x8x1_S65536x1x8

/-- A dense layer into 256 columns. -/
def dense256 (x : FVec F S65536x256 .f32) (w : FVec F S256x256 .f32) (b : FVec F S256 .f32) : FVec F S65536x256 .f32 :=
  addf (Host.dotGeneral dot_S65536x256_S256x256_S65536x256_1_0_0_1_n_n none x w)
    (broadcastInDim S65536x256 ![0, 1] bcast_S1x256_S65536x256_0_1 (broadcastInDim S1x256 ![1] bcast_S256_S1x256_1 b))

/-- A dense layer into 512 columns. -/
def dense512 (x : FVec F S65536x256 .f32) (w : FVec F S256x512 .f32) (b : FVec F S512 .f32) : FVec F S65536x512 .f32 :=
  addf (Host.dotGeneral dot_S65536x256_S256x512_S65536x512_1_0_0_1_n_n none x w)
    (broadcastInDim S65536x512 ![0, 1] bcast_S1x512_S65536x512_0_1 (broadcastInDim S1x512 ![1] bcast_S512_S1x512_1 b))

/-- A dense layer into 64 columns. -/
def dense64 (x : FVec F S65536x256 .f32) (w : FVec F S256x64 .f32) (b : FVec F S64 .f32) : FVec F S65536x64 .f32 :=
  addf (Host.dotGeneral dot_S65536x256_S256x64_S65536x64_1_0_0_1_n_n none x w)
    (broadcastInDim S65536x64 ![0, 1] bcast_S1x64_S65536x64_0_1 (broadcastInDim S1x64 ![1] bcast_S64_S1x64_1 b))

/-- The first hypernetwork's weights, grouped [65536, 8, 64]. -/
def weights1 (x : FVec F S65536x256 .f32) (a2 : FVec F S256x256 .f32) (a3 : FVec F S256 .f32) (a4 : FVec F S256x512 .f32)
    (a5 : FVec F S512 .f32) : FVec F S65536x8x64 .f32 :=
  shapeCast S65536x8x64 (Host.absf (dense512 (maximumf (dense256 x a2 a3) zeros256) a4 a5)) shapeCasts_S65536x512_S65536x8x64

/-- The hidden pre-activation [65536, 1, 64]. -/
def preact (a0 : FVec F S128x512x8x1 .f32) (x : FVec F S65536x256 .f32) (a2 : FVec F S256x256 .f32) (a3 : FVec F S256 .f32)
    (a4 : FVec F S256x512 .f32) (a5 : FVec F S512 .f32) (a10 : FVec F S256x64 .f32) (a11 : FVec F S64 .f32) : FVec F S65536x1x64 .f32 :=
  addf (Host.dotGeneral dot_S65536x1x8_S65536x8x64_S65536x1x64_2_1_1_2_0_0 none (agents a0) (weights1 x a2 a3 a4 a5))
    (broadcastInDim S65536x1x64 ![0, 2] bcast_S65536x64_S65536x1x64_0_2 (dense64 x a10 a11))

/-- The exponential linear unit as the host spells it. -/
def unit (y : FVec F S65536x1x64 .f32) : FVec F S65536x1x64 .f32 :=
  select (cmpf .ogt y zeros3) y
    (mulf (broadcastInDim S65536x1x64 ![] bcast_S_S65536x1x64 (constant S_ .f32 0x3F800000#32))
      (Host.expm1 (select (cmpf .ogt y zeros3)
        (broadcastInDim S65536x1x64 ![] bcast_S_S65536x1x64 (id (constant S_ .f32 0x00000000#32))) y)))

/-- The second hypernetwork's weights as a column per row [65536, 64, 1]. -/
def weights2 (x : FVec F S65536x256 .f32) (a6 : FVec F S256x256 .f32) (a7 : FVec F S256 .f32) (a8 : FVec F S256x64 .f32)
    (a9 : FVec F S64 .f32) : FVec F S65536x64x1 .f32 :=
  broadcastInDim S65536x64x1 ![0, 1] bcast_S65536x64_S65536x64x1_0_1
    (Host.absf (dense64 (maximumf (dense256 x a6 a7) zeros256) a8 a9))

/-- The output bias [65536, 1, 1]. -/
def bias2 (x : FVec F S65536x256 .f32) (a12 : FVec F S256x64 .f32) (a13 : FVec F S64 .f32) (a14 : FVec F S64x1 .f32)
    (a15 : FVec F S1 .f32) : FVec F S65536x1x1 .f32 :=
  broadcastInDim S65536x1x1 ![0, 1] bcast_S65536x1_S65536x1x1_0_1
    (addf (Host.dotGeneral dot_S65536x64_S64x1_S65536x1_1_0_0_1_n_n none (maximumf (dense64 x a12 a13) zeros64) a14)
      (broadcastInDim S65536x1 ![0, 1] bcast_S1x1_S65536x1_0_1 (broadcastInDim S1x1 ![1] bcast_S1_S1x1_1 a15)))

/-- The reference's result [128, 512, 1]. -/
def result (a0 : FVec F S128x512x8x1 .f32) (a1 : FVec F S128x512x1x256 .f32) (a2 : FVec F S256x256 .f32) (a3 : FVec F S256 .f32)
    (a4 : FVec F S256x512 .f32) (a5 : FVec F S512 .f32) (a6 : FVec F S256x256 .f32) (a7 : FVec F S256 .f32)
    (a8 : FVec F S256x64 .f32) (a9 : FVec F S64 .f32) (a10 : FVec F S256x64 .f32) (a11 : FVec F S64 .f32)
    (a12 : FVec F S256x64 .f32) (a13 : FVec F S64 .f32) (a14 : FVec F S64x1 .f32) (a15 : FVec F S1 .f32) : FVec F S128x512x1 .f32 :=
  shapeCast S128x512x1
    (addf (Host.dotGeneral dot_S65536x1x64_S65536x64x1_S65536x1x1_2_1_1_2_0_0 none
        (unit (preact a0 (states a1) a2 a3 a4 a5 a10 a11)) (weights2 (states a1) a6 a7 a8 a9))
      (bias2 (states a1) a12 a13 a14 a15))
    shapeCasts_S65536x1x1_S128x512x1

end Cert.ReferenceIdeal.Term

end
-- ==== Proof.RefRun.lean ====
/-
  The reference program as a straight line of host operations, and its run.

  The program's @main is sixty-five host operations once the calls of its outlined functions (the rectifier,
  the exponential linear unit and the two selects inside it) are written out at their call sites over each
  call's own buffers. Every weakly fair execution runs that line to its end, and each buffer then holds the
  fold of the operations over the launch memory; at the result buffer that fold is the staged term of the
  arguments, and at an argument buffer it is the argument.
-/
import proofs.«180666_j25357486916099_2_alg».proof.Proof.RefTerm
import Idealize.ShloMosaic.Lib.StableHlo.Run

noncomputable section

namespace Cert.ReferenceIdeal.HostRun

open Cert.ReferenceIdeal Cert.ReferenceIdeal.Gen Cert.ReferenceIdeal.Term Idealize.ShloMosaic Idealize.ShloMosaic.TcCoe Idealize.SL.Sem Idealize.ShloMosaic.StableHlo

variable {F : FTy → Type} [FloatOps F]

/-- @main's operations in order, the outlined functions' written out at their calls. -/
abbrev ops : List (HloOp τ sig (Elt F)) :=
  [ reshape main_arg0 main_v0 rfl shapeCasts_S128x512x8x1_S65536x1x8,
    reshape main_arg1 main_v1 rfl shapeCasts_S128x512x1x256_S65536x256,
    binary main_v1 main_arg2 main_v2 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    unary main_arg3 main_v3 (broadcastInDim S1x256 ![1] bcast_S256_S1x256_1 : (⟨S256, .f32⟩ : BufTy).Contents (Elt F) → (⟨S1x256, .f32⟩ : BufTy).Contents (Elt F)),
    unary main_v3 main_v4 (broadcastInDim S65536x256 ![0, 1] bcast_S1x256_S65536x256_0_1 : (⟨S1x256, .f32⟩ : BufTy).Contents (Elt F) → (⟨S65536x256, .f32⟩ : BufTy).Contents (Elt F)),
    binary main_v2 main_v4 main_v5 (addf : (⟨S65536x256, .f32⟩ : BufTy).Contents (Elt F) → (⟨S65536x256, .f32⟩ : BufTy).Contents (Elt F) → (⟨S65536x256, .f32⟩ : BufTy).Contents (Elt F)),
    TRef.nullary main_call0.cst (constant S_ .f32 0x00000000#32),
    TRef.unary main_call0.cst main_call0.v0 (broadcastInDim S65536x256 ![] bcast_S_S65536x256),
    TRef.binary (.of main_v5) main_call0.v0 main_call0.v1 maximumf,
    binary main_v6 main_arg4 main_v7 ((fun l r => Host.dotGeneral dot_S65536x256_S256x512_S65536x512_1_0_0_1_n_n none l r) : (⟨S65536x256, .f32⟩ : BufTy).Contents (Elt F) → (⟨S256x512, .f32⟩ : BufTy).Contents (Elt F) → (⟨S65536x512, .f32⟩ : BufTy).Contents (Elt F)),
    unary main_arg5 main_v8 (broadcastInDim S1x512 ![1] bcast_S512_S1x512_1 : (⟨S512, .f32⟩ : BufTy).Contents (Elt F) → (⟨S1x512, .f32⟩ : BufTy).Contents (Elt F)),
    unary main_v8 main_v9 (broadcastInDim S65536x512 ![0, 1] bcast_S1x512_S65536x512_0_1 : (⟨S1x512, .f32⟩ : BufTy).Contents (Elt F) → (⟨S65536x512, .f32⟩ : BufTy).Contents (Elt F)),
    binary main_v7 main_v9 main_v10 (addf : (⟨S65536x512, .f32⟩ : BufTy).Contents (Elt F) → (⟨S65536x512, .f32⟩ : BufTy).Contents (Elt F) → (⟨S65536x512, .f32⟩ : BufTy).Contents (Elt F)),
    unary main_v10 main_v11 (Host.absf : (⟨S65536x512, .f32⟩ : BufTy).Contents (Elt F) → (⟨S65536x512, .f32⟩ : BufTy).Contents (Elt F)),
    reshape main_v11 main_v12 rfl shapeCasts_S65536x512_S65536x8x64,
    binary main_v1 main_arg10 main_v13 ((fun l r => Host.dotGeneral dot_S65536x256_S256x64_S65536x64_1_0_0_1_n_n none l r) : (⟨S65536x256, .f32⟩ : BufTy).Contents (Elt F) → (⟨S256x64, .f32⟩ : BufTy).Contents (Elt F) → (⟨S65536x64, .f32⟩ : BufTy).Contents (Elt F)),
    unary main_arg11 main_v14 (broadcastInDim S1x64 ![1] bcast_S64_S1x64_1 : (⟨S64, .f32⟩ : BufTy).Contents (Elt F) → (⟨S1x64, .f32⟩ : BufTy).Contents (Elt F)),
    unary main_v14 main_v15 (broadcastInDim S65536x64 ![0, 1] bcast_S1x64_S65536x64_0_1 : (⟨S1x64, .f32⟩ : BufTy).Contents (Elt F) → (⟨S65536x64, .f32⟩ : BufTy).Contents (Elt F)),
    binary main_v13 main_v15 main_v16 (addf : (⟨S65536x64, .f32⟩ : BufTy).Contents (Elt F) → (⟨S65536x64, .f32⟩ : BufTy).Contents (Elt F) → (⟨S65536x64, .f32⟩ : BufTy).Contents (Elt F)),
    unary main_v16 main_v17 (broadcastInDim S65536x1x64 ![0, 2] bcast_S65536x64_S65536x1x64_0_2 : (⟨S65536x64, .f32⟩ : BufTy).Contents (Elt F) → (⟨S65536x1x64, .f32⟩ : BufTy).Contents (Elt F)),
    binary main_v0 main_v12 main_v18 ((fun l r => Host.dotGeneral dot_S65536x1x8_S65536x8x64_S65536x1x64_2_1_1_2_0_0 none l r) : (⟨S65536x1x8, .f32⟩ : BufTy).Contents (Elt F) → (⟨S65536x8x64, .f32⟩ : BufTy).Contents (Elt F) → (⟨S65536x1x64, .f32⟩ : BufTy).Contents (Elt F)),
    binary main_v18 main_v17 main_v19 (addf : (⟨S65536x1x64, .f32⟩ : BufTy).Contents (Elt F) → (⟨S65536x1x64, .f32⟩ : BufTy).Contents (Elt F) → (⟨S65536x1x64, .f32⟩ : BufTy).Contents (Elt F)),
    TRef.nullary main_call1.cst (constant S_ .f32 0x00000000#32),
    TRef.unary main_call1.cst main_call1.v0 (broadcastInDim S65536x1x64 ![] bcast_S_S65536x1x64),
    TRef.binary (.of main_v19) main_call1.v0 main_call1.v1 (cmpf .ogt),
    TRef.nullary main_call1.cst_0 (constant S_ .f32 0x00000000#32),
    TRef.unary main_call1.cst_0 main_call1.v2 (broadcastInDim S65536x1x64 ![] bcast_S_S65536x1x64),
    TRef.binary (.of main_v19) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S65536x1x64 ![] bcast_S_S65536x1x64),
    TRef.ternary main_call1.v3 main_call1.call0.v1 (.of main_v19) main_call1.call0.v2 select,
    TRef.unary main_call1.call0.v2 main_call1.v5 Host.expm1,
    TRef.nullary main_call1.cst_2 (constant S_ .f32 0x3F800000#32),
    TRef.unary main_call1.cst_2 main_call1.v6 (broadcastInDim S65536x1x64 ![] bcast_S_S65536x1x64),
    TRef.binary main_call1.v6 main_call1.v5 main_call1.v7 mulf,
    TRef.ternary main_call1.v1 (.of main_v19) main_call1.v7 main_call1.call1.v0 select,
    binary main_v1 main_arg6 main_v21 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    unary main_arg7 main_v22 (broadcastInDim S1x256 ![1] bcast_S256_S1x256_1 : (⟨S256, .f32⟩ : BufTy).Contents (Elt F) → (⟨S1x256, .f32⟩ : BufTy).Contents (Elt F)),
    unary main_v22 main_v23 (broadcastInDim S65536x256 ![0, 1] bcast_S1x256_S65536x256_0_1 : (⟨S1x256, .f32⟩ : BufTy).Contents (Elt F) → (⟨S65536x256, .f32⟩ : BufTy).Contents (Elt F)),
    binary main_v21 main_v23 main_v24 (addf : (⟨S65536x256, .f32⟩ : BufTy).Contents (Elt F) → (⟨S65536x256, .f32⟩ : BufTy).Contents (Elt F) → (⟨S65536x256, .f32⟩ : BufTy).Contents (Elt F)),
    TRef.nullary main_call2.cst (constant S_ .f32 0x00000000#32),
    TRef.unary main_call2.cst main_call2.v0 (broadcastInDim S65536x256 ![] bcast_S_S65536x256),
    TRef.binary (.of main_v24) main_call2.v0 main_call2.v1 maximumf,
    binary main_v25 main_arg8 main_v26 ((fun l r => Host.dotGeneral dot_S65536x256_S256x64_S65536x64_1_0_0_1_n_n none l r) : (⟨S65536x256, .f32⟩ : BufTy).Contents (Elt F) → (⟨S256x64, .f32⟩ : BufTy).Contents (Elt F) → (⟨S65536x64, .f32⟩ : BufTy).Contents (Elt F)),
    unary main_arg9 main_v27 (broadcastInDim S1x64 ![1] bcast_S64_S1x64_1 : (⟨S64, .f32⟩ : BufTy).Contents (Elt F) → (⟨S1x64, .f32⟩ : BufTy).Contents (Elt F)),
    unary main_v27 main_v28 (broadcastInDim S65536x64 ![0, 1] bcast_S1x64_S65536x64_0_1 : (⟨S1x64, .f32⟩ : BufTy).Contents (Elt F) → (⟨S65536x64, .f32⟩ : BufTy).Contents (Elt F)),
    binary main_v26 main_v28 main_v29 (addf : (⟨S65536x64, .f32⟩ : BufTy).Contents (Elt F) → (⟨S65536x64, .f32⟩ : BufTy).Contents (Elt F) → (⟨S65536x64, .f32⟩ : BufTy).Contents (Elt F)),
    unary main_v29 main_v30 (Host.absf : (⟨S65536x64, .f32⟩ : BufTy).Contents (Elt F) → (⟨S65536x64, .f32⟩ : BufTy).Contents (Elt F)),
    unary main_v30 main_v31 (broadcastInDim S65536x64x1 ![0, 1] bcast_S65536x64_S65536x64x1_0_1 : (⟨S65536x64, .f32⟩ : BufTy).Contents (Elt F) → (⟨S65536x64x1, .f32⟩ : BufTy).Contents (Elt F)),
    binary main_v1 main_arg12 main_v32 ((fun l r => Host.dotGeneral dot_S65536x256_S256x64_S65536x64_1_0_0_1_n_n none l r) : (⟨S65536x256, .f32⟩ : BufTy).Contents (Elt F) → (⟨S256x64, .f32⟩ : BufTy).Contents (Elt F) → (⟨S65536x64, .f32⟩ : BufTy).Contents (Elt F)),
    unary main_arg13 main_v33 (broadcastInDim S1x64 ![1] bcast_S64_S1x64_1 : (⟨S64, .f32⟩ : BufTy).Contents (Elt F) → (⟨S1x64, .f32⟩ : BufTy).Contents (Elt F)),
    unary main_v33 main_v34 (broadcastInDim S65536x64 ![0, 1] bcast_S1x64_S65536x64_0_1 : (⟨S1x64, .f32⟩ : BufTy).Contents (Elt F) → (⟨S65536x64, .f32⟩ : BufTy).Contents (Elt F)),
    binary main_v32 main_v34 main_v35 (addf : (⟨S65536x64, .f32⟩ : BufTy).Contents (Elt F) → (⟨S65536x64, .f32⟩ : BufTy).Contents (Elt F) → (⟨S65536x64, .f32⟩ : BufTy).Contents (Elt F)),
    TRef.nullary main_call3.cst (constant S_ .f32 0x00000000#32),
    TRef.unary main_call3.cst main_call3.v0 (broadcastInDim S65536x64 ![] bcast_S_S65536x64),
    TRef.binary (.of main_v35) main_call3.v0 main_call3.v1 maximumf,
    binary main_v36 main_arg14 main_v37 ((fun l r => Host.dotGeneral dot_S65536x64_S64x1_S65536x1_1_0_0_1_n_n none l r) : (⟨S65536x64, .f32⟩ : BufTy).Contents (Elt F) → (⟨S64x1, .f32⟩ : BufTy).Contents (Elt F) → (⟨S65536x1, .f32⟩ : BufTy).Contents (Elt F)),
    unary main_arg15 main_v38 (broadcastInDim S1x1 ![1] bcast_S1_S1x1_1 : (⟨S1, .f32⟩ : BufTy).Contents (Elt F) → (⟨S1x1, .f32⟩ : BufTy).Contents (Elt F)),
    unary main_v38 main_v39 (broadcastInDim S65536x1 ![0, 1] bcast_S1x1_S65536x1_0_1 : (⟨S1x1, .f32⟩ : BufTy).Contents (Elt F) → (⟨S65536x1, .f32⟩ : BufTy).Contents (Elt F)),
    binary main_v37 main_v39 main_v40 (addf : (⟨S65536x1, .f32⟩ : BufTy).Contents (Elt F) → (⟨S65536x1, .f32⟩ : BufTy).Contents (Elt F) → (⟨S65536x1, .f32⟩ : BufTy).Contents (Elt F)),
    unary main_v40 main_v41 (broadcastInDim S65536x1x1 ![0, 1] bcast_S65536x1_S65536x1x1_0_1 : (⟨S65536x1, .f32⟩ : BufTy).Contents (Elt F) → (⟨S65536x1x1, .f32⟩ : BufTy).Contents (Elt F)),
    binary main_v20 main_v31 main_v42 ((fun l r => Host.dotGeneral dot_S65536x1x64_S65536x64x1_S65536x1x1_2_1_1_2_0_0 none l r) : (⟨S65536x1x64, .f32⟩ : BufTy).Contents (Elt F) → (⟨S65536x64x1, .f32⟩ : BufTy).Contents (Elt F) → (⟨S65536x1x1, .f32⟩ : BufTy).Contents (Elt F)),
    binary main_v42 main_v41 main_v43 (addf : (⟨S65536x1x1, .f32⟩ : BufTy).Contents (Elt F) → (⟨S65536x1x1, .f32⟩ : BufTy).Contents (Elt F) → (⟨S65536x1x1, .f32⟩ : BufTy).Contents (Elt F)),
    reshape main_v43 main_v44 rfl shapeCasts_S65536x1x1_S128x512x1 ]

set_option maxRecDepth 65536 in
/-- @main is that straight line: with the functions unfolded at their calls both sides are one chain of operations. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., reshape_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., reshape_bufs_sub .., binary_bufs_sub .., unary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., binary_bufs_sub .., binary_bufs_sub .., reshape_bufs_sub ..⟩

/-- Every weakly fair execution of @main terminates, each buffer at the fold of the operations over the launch memory. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The buffers the line writes: every value of @main and of the functions it calls. -/
abbrev written : List (Ref sig .tc) := [main_v0, main_v1, main_v2, main_v3, main_v4, main_v5, main_call0_cst, main_call0_v0, main_v6, main_v7, main_v8, main_v9, main_v10, main_v11, main_v12, main_v13, main_v14, main_v15, main_v16, main_v17, main_v18, main_v19, main_call1_cst, main_call1_v0, main_call1_v1, main_call1_cst_0, main_call1_v2, main_call1_v3, main_call1_cst_1, main_call1_call0_v0, main_call1_call0_v1, main_call1_v4, main_call1_v5, main_call1_cst_2, main_call1_v6, main_call1_v7, main_v20, main_v21, main_v22, main_v23, main_v24, main_call2_cst, main_call2_v0, main_v25, main_v26, main_v27, main_v28, main_v29, main_v30, main_v31, main_v32, main_v33, main_v34, main_v35, main_call3_cst, main_call3_v0, main_v36, main_v37, main_v38, main_v39, main_v40, main_v41, main_v42, main_v43, main_v44]

theorem ops_writes : (ops : List (HloOp τ sig (Elt F))).Forall fun op =>
    op.writes ⊆ (written.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- An argument's buffer is written by no operation: it keeps its contents. -/
theorem arg_kept (V : Valuation τ sig (Elt F)) (r : Ref sig .tc) (h : r ∉ written) :
    after ops V (Proc.devRef .tc r) = V (Proc.devRef .tc r) :=
  after_of_writes_sub ops V ops_writes h

set_option maxRecDepth 65536 in
set_option maxHeartbeats 4000000 in
/-- The fold at the result buffer is the staged term of the arguments. -/
theorem result_eq (V : Valuation τ sig (Elt F)) :
    after ops V (main_v44 : DevRef τ sig)
      = Term.result (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) := by
  after_results_simp
  rfl

/-- Every weakly fair execution of @main terminates with the result at the staged term of the launch arguments and
    every argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v44) = Term.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨(h c main_v44).trans (result_eq _),
      (h c main_arg0).trans (arg_kept _ main_arg0 (by decide)),
      (h c main_arg1).trans (arg_kept _ main_arg1 (by decide)),
      (h c main_arg2).trans (arg_kept _ main_arg2 (by decide)),
      (h c main_arg3).trans (arg_kept _ main_arg3 (by decide)),
      (h c main_arg4).trans (arg_kept _ main_arg4 (by decide)),
      (h c main_arg5).trans (arg_kept _ main_arg5 (by decide)),
      (h c main_arg6).trans (arg_kept _ main_arg6 (by decide)),
      (h c main_arg7).trans (arg_kept _ main_arg7 (by decide)),
      (h c main_arg8).trans (arg_kept _ main_arg8 (by decide)),
      (h c main_arg9).trans (arg_kept _ main_arg9 (by decide)),
      (h c main_arg10).trans (arg_kept _ main_arg10 (by decide)),
      (h c main_arg11).trans (arg_kept _ main_arg11 (by decide)),
      (h c main_arg12).trans (arg_kept _ main_arg12 (by decide)),
      (h c main_arg13).trans (arg_kept _ main_arg13 (by decide)),
      (h c main_arg14).trans (arg_kept _ main_arg14 (by decide)),
      (h c main_arg15).trans (arg_kept _ main_arg15 (by decide))⟩)
    (run_fold m ρ)

end Cert.ReferenceIdeal.HostRun

end
-- ==== Proof.LibBatchContract.lean ====
/-
  Batched matrix products as plain sums, for any extents and any dimension record of the right shape.

  With one batch axis in front: a product of [B, M, K] with [B, N, K] contracting the LAST axis of both sums, at the
  result index (b, m, n), the products l (b, m, k) · r (b, n, k) over k < K; a product of [B, M, K] with [B, K, N]
  contracting the left operand's last axis with the right operand's middle one sums l (b, m, k) · r (b, k, n).
  What the record owes is one contracting axis of extent K at those positions, and free and batch axes that read the
  result's coordinates.
-/
import Idealize.ShloMosaic.Lib.ValueIdx

noncomputable section

open scoped BigOperators

namespace Idealize.ShloMosaic.BatchContract

open Idealize.ShloMosaic Idealize.ShloMosaic.ValueIdx

/-- `[B, M, K] · [B, N, K] → [B, M, N]`, the last axes contracted. -/
theorem sum_contr_last_last {B M N K : ℕ} {R : Type*} [AddCommMonoid R] [Mul R]
    (D : DotDims (⟨3, ![B, M, K]⟩ : Shape) (⟨3, ![B, N, K]⟩ : Shape) (⟨3, ![B, M, N]⟩ : Shape))
    (hr : D.contr.rank = 1) (hs : D.contr.size ⟨0, by omega⟩ = K)
    (hlc : D.lhsContracting = [2]) (hrc : D.rhsContracting = [2])
    (hl0 : ∀ j q, (D.lhsIdx j q 0).val = (j 0).val) (hl1 : ∀ j q, (D.lhsIdx j q 1).val = (j 1).val)
    (hr0 : ∀ j q, (D.rhsIdx j q 0).val = (j 0).val) (hr1 : ∀ j q, (D.rhsIdx j q 1).val = (j 2).val)
    (l : (⟨3, ![B, M, K]⟩ : Shape).Idx → R) (r : (⟨3, ![B, N, K]⟩ : Shape).Idx → R) (j : (⟨3, ![B, M, N]⟩ : Shape).Idx) :
    ∑ q : D.contr.Idx, l (D.lhsIdx j q) * r (D.rhsIdx j q)
      = ∑ k : Fin K, l (ix3 (j 0) (j 1) k) * r (ix3 (j 0) (j 2) k) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix3 (j 0) (j 1) k := funext fun a => Fin.ext (by
    match a with
    | ⟨0, _⟩ => exact hl0 _ _
    | ⟨1, _⟩ => exact hl1 _ _
    | ⟨2, _⟩ => exact h1.trans hk)
  have er : D.rhsIdx j ((contrEquiv1 D K hr hs).symm k) = ix3 (j 0) (j 2) k := funext fun a => Fin.ext (by
    match a with
    | ⟨0, _⟩ => exact hr0 _ _
    | ⟨1, _⟩ => exact hr1 _ _
    | ⟨2, _⟩ => exact h2.trans hk)
  exact congrArg₂ (· * ·) (congrArg l el) (congrArg r er)

/-- `[B, M, K] · [B, K, N] → [B, M, N]`, the left operand's last axis contracted with the right operand's middle one. -/
theorem sum_contr_last_mid {B M N K : ℕ} {R : Type*} [AddCommMonoid R] [Mul R]
    (D : DotDims (⟨3, ![B, M, K]⟩ : Shape) (⟨3, ![B, K, N]⟩ : Shape) (⟨3, ![B, M, N]⟩ : Shape))
    (hr : D.contr.rank = 1) (hs : D.contr.size ⟨0, by omega⟩ = K)
    (hlc : D.lhsContracting = [2]) (hrc : D.rhsContracting = [1])
    (hl0 : ∀ j q, (D.lhsIdx j q 0).val = (j 0).val) (hl1 : ∀ j q, (D.lhsIdx j q 1).val = (j 1).val)
    (hr0 : ∀ j q, (D.rhsIdx j q 0).val = (j 0).val) (hr2 : ∀ j q, (D.rhsIdx j q 2).val = (j 2).val)
    (l : (⟨3, ![B, M, K]⟩ : Shape).Idx → R) (r : (⟨3, ![B, K, N]⟩ : Shape).Idx → R) (j : (⟨3, ![B, M, N]⟩ : Shape).Idx) :
    ∑ q : D.contr.Idx, l (D.lhsIdx j q) * r (D.rhsIdx j q)
      = ∑ k : Fin K, l (ix3 (j 0) (j 1) k) * r (ix3 (j 0) k (j 2)) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix3 (j 0) (j 1) k := funext fun a => Fin.ext (by
    match a with
    | ⟨0, _⟩ => exact hl0 _ _
    | ⟨1, _⟩ => exact hl1 _ _
    | ⟨2, _⟩ => exact h1.trans hk)
  have er : D.rhsIdx j ((contrEquiv1 D K hr hs).symm k) = ix3 (j 0) k (j 2) := funext fun a => Fin.ext (by
    match a with
    | ⟨0, _⟩ => exact hr0 _ _
    | ⟨1, _⟩ => exact h2.trans hk
    | ⟨2, _⟩ => exact hr2 _ _)
  exact congrArg₂ (· * ·) (congrArg l el) (congrArg r er)

end Idealize.ShloMosaic.BatchContract

end
-- ==== Proof.LibRegroup.lean ====
/-
  A row-major array regrouped without moving an element: adjacent axes merged into one, one axis split into
  two, a trailing unit axis added, and a trailing unit axis broadcast along a new extent. Each lemma reads the
  regrouped array at an index written by coordinates and names the operand's index by coordinates, the relation
  between them being the arithmetic of the row-major position: an axis of extent `g * l` is the pair
  `(u, v)`, `u < g`, `v < l`, at position `u * l + v`.
-/
import Idealize.ShloMosaic.Lib.Pipeline.Value
import Idealize.ShloMosaic.Lib.ValueIdx

namespace Idealize.ShloMosaic.Regroup

open Idealize.ShloMosaic Idealize.ShloMosaic.ValueIdx

variable {α : Type}

/-- The last axis of a matrix split in two: `[a, n] → [a, g, l]` with `n = g * l` reads, at `(q, u, v)`, the
    operand at `(q, u * l + v)`. -/
theorem shapeCast_splitLast_apply {a n g l : ℕ} (hn : n = g * l) (x : (⟨2, ![a, n]⟩ : Shape).Idx → α)
    (h : (⟨2, ![a, n]⟩ : Shape).ShapeCasts ⟨3, ![a, g, l]⟩) (q : Fin a) (u : Fin g) (v : Fin l) (k : Fin n)
    (hk : k.val = u.val * l + v.val) :
    shapeCast ⟨3, ![a, g, l]⟩ x h (ix3 q u v) = x (ix2 q k) :=
  shapeCast_apply x h _ _ (by
    rw [Shape.rowMajor_val_two, Shape.rowMajor_val_three]
    show q.val * n + k.val = (q.val * g + u.val) * l + v.val
    rw [hk, hn]; ring)

/-- The last two axes of a rank-3 array merged: `[a, g, l] → [a, n]` with `n = g * l` reads, at `(q, k)` with
    `k = u * l + v`, the operand at `(q, u, v)`. -/
theorem shapeCast_mergeLast_apply {a n g l : ℕ} (hn : n = g * l) (x : (⟨3, ![a, g, l]⟩ : Shape).Idx → α)
    (h : (⟨3, ![a, g, l]⟩ : Shape).ShapeCasts ⟨2, ![a, n]⟩) (q : Fin a) (k : Fin n) (u : Fin g) (v : Fin l)
    (hk : k.val = u.val * l + v.val) :
    shapeCast ⟨2, ![a, n]⟩ x h (ix2 q k) = x (ix3 q u v) :=
  shapeCast_apply x h _ _ (by
    rw [Shape.rowMajor_val_two, Shape.rowMajor_val_three]
    show (q.val * g + u.val) * l + v.val = q.val * n + k.val
    rw [hk, hn]; ring)

/-- The first two axes of a rank-3 array merged: `[b, s, n] → [r, n]` with `r = b * s` reads, at `(p, k)` with
    `p = i * s + j`, the operand at `(i, j, k)`. -/
theorem shapeCast_mergeFirst_apply {b s n r : ℕ} (x : (⟨3, ![b, s, n]⟩ : Shape).Idx → α)
    (h : (⟨3, ![b, s, n]⟩ : Shape).ShapeCasts ⟨2, ![r, n]⟩) (p : Fin r) (k : Fin n) (i : Fin b) (j : Fin s)
    (hp : p.val = i.val * s + j.val) :
    shapeCast ⟨2, ![r, n]⟩ x h (ix2 p k) = x (ix3 i j k) :=
  shapeCast_apply x h _ _ (by
    rw [Shape.rowMajor_val_two, Shape.rowMajor_val_three]
    show (i.val * s + j.val) * n + k.val = p.val * n + k.val
    rw [hp])

/-- The first axis of a matrix split in two: `[r, n] → [b, s, n]` with `r = b * s` reads, at `(i, j, k)`, the
    operand at `(i * s + j, k)`. -/
theorem shapeCast_splitFirst_apply {b s n r : ℕ} (x : (⟨2, ![r, n]⟩ : Shape).Idx → α)
    (h : (⟨2, ![r, n]⟩ : Shape).ShapeCasts ⟨3, ![b, s, n]⟩) (i : Fin b) (j : Fin s) (k : Fin n) (p : Fin r)
    (hp : p.val = i.val * s + j.val) :
    shapeCast ⟨3, ![b, s, n]⟩ x h (ix3 i j k) = x (ix2 p k) :=
  shapeCast_apply x h _ _ (by
    rw [Shape.rowMajor_val_two, Shape.rowMajor_val_three]
    show p.val * n + k.val = (i.val * s + j.val) * n + k.val
    rw [hp])

/-- A vector cut into rows: `[n] → [a, g]` reads, at `(o, u)`, the operand at `o * g + u`. -/
theorem shapeCast_rows_apply {n a g : ℕ} (x : (⟨1, ![n]⟩ : Shape).Idx → α)
    (h : (⟨1, ![n]⟩ : Shape).ShapeCasts ⟨2, ![a, g]⟩) (o : Fin a) (u : Fin g) (k : Fin n)
    (hk : k.val = o.val * g + u.val) :
    shapeCast ⟨2, ![a, g]⟩ x h (ix2 o u) = x (ix1 k) :=
  shapeCast_apply x h _ _ (by
    rw [Shape.rowMajor_val_two, Shape.rowMajor_val_one]
    show k.val = o.val * g + u.val
    exact hk)

/-- A trailing unit axis added to a matrix: `[a, g] → [a, g, 1]` reads, at `(q, u, w)`, the operand at `(q, u)`. -/
theorem shapeCast_trailingUnit_apply {a g : ℕ} (x : (⟨2, ![a, g]⟩ : Shape).Idx → α)
    (h : (⟨2, ![a, g]⟩ : Shape).ShapeCasts ⟨3, ![a, g, 1]⟩) (q : Fin a) (u : Fin g) (w : Fin 1) :
    shapeCast ⟨3, ![a, g, 1]⟩ x h (ix3 q u w) = x (ix2 q u) :=
  shapeCast_apply x h _ _ (by
    have hw : w.val = 0 := by omega
    rw [Shape.rowMajor_val_two, Shape.rowMajor_val_three]
    show q.val * g + u.val = (q.val * g + u.val) * 1 + w.val
    rw [hw, Nat.mul_one, Nat.add_zero])

/-- A trailing unit axis broadcast along a new extent: `[a, g, 1] → [a, g, l]` reads, at `(q, u, v)`, the
    operand's one entry `(q, u, 0)` of that column. -/
theorem broadcastTo_trailingUnit_apply {a g l : ℕ} (x : (⟨3, ![a, g, 1]⟩ : Shape).Idx → α)
    (h : (⟨3, ![a, g, 1]⟩ : Shape).Broadcasts ⟨3, ![a, g, l]⟩) (q : Fin a) (u : Fin g) (v : Fin l) :
    broadcastTo ⟨3, ![a, g, l]⟩ x h (ix3 q u v) = x (ix3 q u (0 : Fin 1)) := by
  refine broadcastTo_apply x h (ix3 q u v) (ix3 q u (0 : Fin 1)) fun ax => ?_
  match ax with
  | ⟨0, _⟩ =>
    show q.val = if a = 1 then 0 else q.val
    split
    · have := q.isLt; omega
    · rfl
  | ⟨1, _⟩ =>
    show u.val = if g = 1 then 0 else u.val
    split
    · have := u.isLt; omega
    · rfl
  | ⟨2, _⟩ => rfl

end Idealize.ShloMosaic.Regroup
-- ==== Proof.RefValue.lean ====
/-
  The reference's staged term, read entry by entry, is the mixing network over the whole batch.

  Stage by stage: a rectified dense layer of the host is the hidden layer of the row-vector bias (a vector set
  under a unit axis by a broadcast is the vector set there by a reshape); the first hypernetwork's weights
  regrouped [65536, 8, 64] read group a, column j at column 64 a + j; the batched product over the eight
  agents is the weighted sum of the groups; the host's unit — a select around one times exp(·) − 1 of a
  second select — is the exponential linear unit on every extended real; the second batched product is the
  sum over the 64 hidden columns; the last product with the [64, 1] weights is the sum against the same
  weights viewed as a row; and the final reshape reads row p · 512 + t at (p, t, 0).
-/
import proofs.«180666_j25357486916099_2_alg».proof.Proof.RefTerm
import proofs.«180666_j25357486916099_2_alg».proof.Proof.MixerWhole
import proofs.«180666_j25357486916099_2_alg».proof.Proof.LibHiddenLayers
import proofs.«180666_j25357486916099_2_alg».proof.Proof.LibBatchContract
import proofs.«180666_j25357486916099_2_alg».proof.Proof.LibRegroup

noncomputable section

open scoped BigOperators

namespace Cert.ReferenceIdeal.RefValue

open Cert.ReferenceIdeal Cert.ReferenceIdeal.Gen Cert.ReferenceIdeal.Term Idealize.ShloMosaic Idealize.ShloMosaic.TcCoe
open Idealize.ShloMosaic.ValueIdx Idealize.ShloMosaic.GcnDense Cert.Perceptron Cert.Mixer Cert.Layers

variable (a0 : FVec Ideal S128x512x8x1 .f32) (a1 : FVec Ideal S128x512x1x256 .f32) (a2 : FVec Ideal S256x256 .f32) (a3 : FVec Ideal S256 .f32) (a4 : FVec Ideal S256x512 .f32) (a5 : FVec Ideal S512 .f32) (a6 : FVec Ideal S256x256 .f32) (a7 : FVec Ideal S256 .f32) (a8 : FVec Ideal S256x64 .f32) (a9 : FVec Ideal S64 .f32) (a10 : FVec Ideal S256x64 .f32) (a11 : FVec Ideal S64 .f32) (a12 : FVec Ideal S256x64 .f32) (a13 : FVec Ideal S64 .f32) (a14 : FVec Ideal S64x1 .f32) (a15 : FVec Ideal S1 .f32)
variable (x : FVec Ideal S65536x256 .f32)

/-- The host's rectified dense layer into 256 columns. -/
theorem hidden256 (w : FVec Ideal S256x256 .f32) (b : FVec Ideal S256 .f32) :
    maximumf (dense256 x w b) zeros256 = hidden x w (shapeCast ⟨2, ![1, 256]⟩ b (by decide)) := by
  unfold dense256
  rw [← row_reshape_eq_broadcast b (by decide) bcast_S256_S1x256_1]
  exact host_hidden_eq dot_S65536x256_S256x256_S65536x256_1_0_0_1_n_n rfl rfl rfl rfl (fun _ _ => rfl) (fun _ _ => rfl) none x w _ bcast_S1x256_S65536x256_0_1 bcast_S_S65536x256

/-- The host's rectified dense layer into 64 columns. -/
theorem hidden64 (w : FVec Ideal S256x64 .f32) (b : FVec Ideal S64 .f32) :
    maximumf (dense64 x w b) zeros64 = hidden x w (shapeCast ⟨2, ![1, 64]⟩ b (by decide)) := by
  unfold dense64
  rw [← row_reshape_eq_broadcast b (by decide) bcast_S64_S1x64_1]
  exact host_hidden_eq dot_S65536x256_S256x64_S65536x64_1_0_0_1_n_n rfl rfl rfl rfl (fun _ _ => rfl) (fun _ _ => rfl) none x w _ bcast_S1x64_S65536x64_0_1 bcast_S_S65536x64

/-- The host's dense layer into 64 columns at an entry, over any input. -/
theorem dense64_apply (y : FVec Ideal S65536x256 .f32) (w : FVec Ideal S256x64 .f32) (b : FVec Ideal S64 .f32) (r : Fin 65536) (j : Fin 64) :
    dense64 y w b (ix2 r j) = entry y w (shapeCast ⟨2, ![1, 64]⟩ b (by decide)) r j := by
  unfold dense64
  rw [← row_reshape_eq_broadcast b (by decide) bcast_S64_S1x64_1]
  exact host_dense_apply dot_S65536x256_S256x64_S65536x64_1_0_0_1_n_n rfl rfl rfl rfl (fun _ _ => rfl) (fun _ _ => rfl) none y w _ bcast_S1x64_S65536x64_0_1 r j

/-- The host's dense layer into 512 columns at an entry. -/
theorem dense512_apply (y : FVec Ideal S65536x256 .f32) (w : FVec Ideal S256x512 .f32) (b : FVec Ideal S512 .f32) (r : Fin 65536) (c : Fin 512) :
    dense512 y w b (ix2 r c) = entry y w (shapeCast ⟨2, ![1, 512]⟩ b (by decide)) r c := by
  unfold dense512
  rw [← row_reshape_eq_broadcast b (by decide) bcast_S512_S1x512_1]
  exact host_dense_apply dot_S65536x256_S256x512_S65536x512_1_0_0_1_n_n rfl rfl rfl rfl (fun _ _ => rfl) (fun _ _ => rfl) none y w _ bcast_S1x512_S65536x512_0_1 r c

/-- The regrouped weights of the first hypernetwork: group a, column j is column 64 a + j. -/
theorem weights1_apply (r : Fin 65536) (a : Fin 8) (j : Fin 64) :
    weights1 x a2 a3 a4 a5 (ix3 r a j)
      = w1 x a2 (shapeCast ⟨2, ![1, 256]⟩ a3 (by decide)) a4 (shapeCast ⟨2, ![1, 512]⟩ a5 (by decide)) r (col a j) := by
  unfold weights1 w1
  rw [Regroup.shapeCast_splitLast_apply (g := 8) (l := 64) rfl _ _ r a j (col a j) rfl]
  show absE (dense512 _ a4 a5 (ix2 r (col a j))) = absE _
  rw [dense512_apply, hidden256]

/-- The agents' values viewed [65536, 1, 8] and viewed [65536, 8] hold the same entries. -/
theorem agents_apply (r : Fin 65536) (a : Fin 8) :
    agents a0 (ix3 r (0 : Fin 1) a) = shapeCast ⟨2, ![65536, 8]⟩ a0 (by decide) (ix2 r a) := by
  unfold agents shapeCast
  refine congrArg a0 (Shape.reshapeEquiv_eq_of_rowMajor _ ((Shape.rowMajor_reshapeEquiv _ _).trans ?_))
  rw [Shape.rowMajor_val_two, Shape.rowMajor_val_three]
  show r.val * 8 + a.val = (r.val * 1 + 0) * 8 + a.val
  omega

/-- The hidden pre-activation at row r, column j. -/
theorem preact_apply (r : Fin 65536) (j : Fin 64) :
    preact a0 x a2 a3 a4 a5 a10 a11 (ix3 r (0 : Fin 1) j)
      = pre x (shapeCast ⟨2, ![65536, 8]⟩ a0 (by decide)) a2 (shapeCast ⟨2, ![1, 256]⟩ a3 (by decide)) a4
          (shapeCast ⟨2, ![1, 512]⟩ a5 (by decide)) a10 (shapeCast ⟨2, ![1, 64]⟩ a11 (by decide)) r j := by
  unfold preact pre
  rw [addf_apply]
  refine congrArg₂ (· + ·) ?_ ?_
  · simp only [Host.dotGeneral]
    refine (Ideal.dotGeneral_apply dot_S65536x1x8_S65536x8x64_S65536x1x64_2_1_1_2_0_0 none _ _ _ (ix3 r (0 : Fin 1) j)).trans ?_
    refine (BatchContract.sum_contr_last_mid dot_S65536x1x8_S65536x8x64_S65536x1x64_2_1_1_2_0_0 rfl rfl rfl rfl
      (fun _ _ => rfl) (fun _ _ => rfl) (fun _ _ => rfl) (fun _ _ => rfl) _ _ (ix3 r (0 : Fin 1) j)).trans ?_
    refine Finset.sum_congr rfl fun a _ => ?_
    show agents a0 (ix3 r (0 : Fin 1) a) * weights1 x a2 a3 a4 a5 (ix3 r a j) = _
    rw [weights1_apply, agents_apply]
  · rw [broadcastInDim_apply _ bcast_S65536x64_S65536x1x64_0_2 _ (ix3 r (0 : Fin 1) j) (ix2 r j)
      (fun a => by match a with | ⟨0, _⟩ => rfl | ⟨1, _⟩ => rfl)]
    exact dense64_apply x a10 a11 r j

/-- The host's spelling of the unit is the exponential linear unit, on every extended real. -/
theorem unit_apply (y : FVec Ideal S65536x1x64 .f32) (i : S65536x1x64.Idx) : unit y i = elu (y i) := by
  show Scalar.select (Ideal.cmp .ogt (y i) zeroWord) (y i)
      (Ideal.ofBits .f32 0x3F800000#32 * (Ideal.exp (Scalar.select (Ideal.cmp .ogt (y i) zeroWord) zeroWord (y i)) - 1)) = _
  unfold elu
  generalize y i = z
  rcases BitVec.eq_zero_or_eq_one (Ideal.cmp .ogt z zeroWord) with h | h
  · rw [h]
    show Ideal.ofBits .f32 0x3F800000#32 * (Ideal.exp z - 1) = Ideal.exp z - 1
    rw [ofBits_one_f32, one_mul]
  · rw [h]
    rfl

/-- The second hypernetwork's weights at row r, column k. -/
theorem weights2_apply (r : Fin 65536) (k : Fin 64) :
    weights2 x a6 a7 a8 a9 (ix3 r k (0 : Fin 1))
      = w2 x a6 (shapeCast ⟨2, ![1, 256]⟩ a7 (by decide)) a8 (shapeCast ⟨2, ![1, 64]⟩ a9 (by decide)) r k := by
  unfold weights2 w2
  rw [broadcastInDim_apply _ bcast_S65536x64_S65536x64x1_0_1 _ (ix3 r k (0 : Fin 1)) (ix2 r k)
    (fun a => by match a with | ⟨0, _⟩ => rfl | ⟨1, _⟩ => rfl)]
  show absE (dense64 _ a8 a9 (ix2 r k)) = absE _
  rw [dense64_apply, hidden256]

/-- The output bias of row r. -/
theorem bias2_apply (r : Fin 65536) :
    bias2 x a12 a13 a14 a15 (ix3 r (0 : Fin 1) (0 : Fin 1))
      = b2 x a12 (shapeCast ⟨2, ![1, 64]⟩ a13 (by decide)) (shapeCast ⟨2, ![1, 64]⟩ a14 (by decide))
          (shapeCast ⟨2, ![1, 1]⟩ a15 (by decide)) r := by
  unfold bias2 b2
  rw [broadcastInDim_apply _ bcast_S65536x1_S65536x1x1_0_1 _ (ix3 r (0 : Fin 1) (0 : Fin 1)) (ix2 r (0 : Fin 1))
    (fun a => by match a with | ⟨0, _⟩ => rfl | ⟨1, _⟩ => rfl)]
  rw [addf_apply]
  refine congrArg₂ (· + ·) ?_ ?_
  · simp only [Host.dotGeneral]
    refine (Ideal.dotGeneral_apply dot_S65536x64_S64x1_S65536x1_1_0_0_1_n_n none _ _ _ (ix2 r (0 : Fin 1))).trans ?_
    refine (Contract2.sum_contr_eq_sum_fin dot_S65536x64_S64x1_S65536x1_1_0_0_1_n_n rfl rfl rfl rfl
      (fun _ _ => rfl) (fun _ _ => rfl) _ _ (ix2 r (0 : Fin 1))).trans ?_
    refine Finset.sum_congr rfl fun j _ => ?_
    show maximumf (dense64 x a12 a13) zeros64 (ix2 r j) * a14 (ix2 j (0 : Fin 1)) = _
    rw [hidden64]
    refine congrArg₂ (· * ·) rfl (Eq.symm ?_)
    refine shapeCast_apply a14 _ (ix2 (0 : Fin 1) j) (ix2 j (0 : Fin 1)) ?_
    rw [Shape.rowMajor_val_two, Shape.rowMajor_val_two]
    show j.val * 1 + 0 = 0 * 64 + j.val
    omega
  · rw [bias_rows_apply _ _ r (0 : Fin 1), ← row_reshape_eq_broadcast a15 (by decide) bcast_S1_S1x1_1]

/-- The reference's result is the mixing network over the whole batch. -/
theorem result_whole :
    Term.result (F := Ideal) a0 a1 a2 a3 a4 a5 a6 a7 a8 a9 a10 a11 a12 a13 a14 a15 = whole a0 a1 a2 a3 a4 a5 a6 a7 a8 a9 a10 a11 a12 a13 a14 a15 := by
  funext i
  obtain ⟨p, t, u, rfl⟩ : ∃ (p : Fin 128) (t : Fin 512) (u : Fin 1), i = ix3 p t u := ⟨i 0, i 1, i 2, eq_ix3 i⟩
  have hu : u = 0 := Subsingleton.elim _ _
  subst hu
  unfold Term.result whole
  rw [shapeCast_apply _ shapeCasts_S65536x1x1_S128x512x1 (ix3 p t (0 : Fin 1)) (ix3 (rowOf p t) (0 : Fin 1) (0 : Fin 1)) (by
    rw [Shape.rowMajor_val_three, Shape.rowMajor_val_three]
    show ((p.val * 512 + t.val) * 1 + 0) * 1 + 0 = (p.val * 512 + t.val) * 1 + 0
    omega)]
  rw [addf_apply, bias2_apply]
  unfold Mixer.out
  refine congrArg₂ (· + ·) ?_ rfl
  simp only [Host.dotGeneral]
  refine (Ideal.dotGeneral_apply dot_S65536x1x64_S65536x64x1_S65536x1x1_2_1_1_2_0_0 none _ _ _ _).trans ?_
  refine (BatchContract.sum_contr_last_mid dot_S65536x1x64_S65536x64x1_S65536x1x1_2_1_1_2_0_0 rfl rfl rfl rfl
    (fun _ _ => rfl) (fun _ _ => rfl) (fun _ _ => rfl) (fun _ _ => rfl) _ _ _).trans ?_
  refine Finset.sum_congr rfl fun j _ => ?_
  show unit (preact a0 (states a1) a2 a3 a4 a5 a10 a11) (ix3 (rowOf p t) (0 : Fin 1) j)
      * weights2 (states a1) a6 a7 a8 a9 (ix3 (rowOf p t) j (0 : Fin 1)) = _
  rw [unit_apply, preact_apply, weights2_apply]
  rfl

end Cert.ReferenceIdeal.RefValue

end
-- ==== Proof.lean ====
/-
  The certificate of this kernel against its reference: the five claims of `Cert.Claim`.

  The kernel is a mixing network evaluated on tiles of 2048 rows: two hypernetworks of the state (each two dense
  layers, the first rectified, the result taken in absolute value), a weighted sum of the eight agents' values
  against the first hypernetwork's 8 × 64 weights plus a bias layer of the state, the exponential linear unit,
  and a weighted sum of the 64 hidden values against the second hypernetwork's weights plus a bias of the state
  through one rectified layer. The reference computes the same network on the whole batch with matrix products,
  two batched products and its own spelling of the unit. On the extended reals the two are one function of the arguments:
  the kernel's narrowing to sixteen bits is the identity, a matrix product into a zero accumulator is the
  product, a sum accumulated from zero in eight steps is the sum over the eight agents, exp(y) − 1 is the host's
  exponential-minus-one, and one times a value is the value. No step uses that the inputs are finite.

  The three frames: the kernel's and its idealization's are the generated frame certificates; the reference's is
  its run with the result dropped. The idealization rewrote nothing, so `preserves` is `True`. For `algebraic`
  both runs end at `Cert.Mixer.whole` of their arguments, which agree.
-/
import proofs.«180666_j25357486916099_2_alg».proof.Defs
import proofs.«180666_j25357486916099_2_alg».proof.Proof.Gen.Kernel
import proofs.«180666_j25357486916099_2_alg».proof.Proof.Gen.Kernel.Frame
import proofs.«180666_j25357486916099_2_alg».proof.Proof.Gen.KernelIdeal
import proofs.«180666_j25357486916099_2_alg».proof.Proof.Gen.KernelIdeal.Frame
import proofs.«180666_j25357486916099_2_alg».proof.Proof.Gen.ReferenceIdeal
import proofs.«180666_j25357486916099_2_alg».proof.Proof.Gen.Pre_finite_inputs
import proofs.«180666_j25357486916099_2_alg».proof.Proof.KernelValue
import proofs.«180666_j25357486916099_2_alg».proof.Proof.RefRun
import proofs.«180666_j25357486916099_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_reference : Cert.frame_ReferenceIdeal := fun m ρ _ =>
  (θ_run Cert.ReferenceIdeal.defs _ _).mono (fun _ h c => (h c).2) (Cert.ReferenceIdeal.HostRun.run (F := Ideal) m ρ)

/-- The idealization rewrote no operation. -/
theorem preserves : Cert.preserves_Kernel_KernelIdeal := trivial

/-- Both idealized programs end at the mixing network over the whole batch of their arguments, which agree. -/
theorem algebraic : Cert.algebraic_KernelIdeal_ReferenceIdeal := by
  intro m ρ m' ρ' _ hagree
  refine ⟨fun c => Cert.Mixer.whole
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15)),
    Cert.KernelIdeal.Whole.run m ρ, ?_⟩
  refine (θ_run Cert.ReferenceIdeal.defs _ _).mono (fun _ h c => ⟨(h c).1.trans ?_, (h c).2⟩)
    (Cert.ReferenceIdeal.HostRun.run (F := Ideal) m' ρ')
  rw [Cert.ReferenceIdeal.RefValue.result_whole]
  obtain ⟨e0, e1, e2, e3, e4, e5, e6, e7, e8, e9, e10, e11, e12, e13, e14, e15⟩ := hagree c
  rw [e0, e1, e2, e3, e4, e5, e6, e7, e8, e9, e10, e11, e12, e13, e14, e15]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
